-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x64 : Shape := ⟨2, ![1024, 64]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S16x2048x1024 .f32) (main_arg1 : FVec F S1024x64 .f32) (main_arg2 : FVec F S1024x64 .f32) (main_arg3 : FVec F S1024x64 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S16x2048x1024 : Shape := ⟨3, ![16, 2048, 1024]⟩
abbrev S1024x64 : Shape := ⟨2, ![1024, 64]⟩
abbrev S1024x192 : Shape := ⟨2, ![1024, 192]⟩
abbrev S16x2048x64 : Shape := ⟨3, ![16, 2048, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1x2048x64 : Shape := ⟨3, ![1, 2048, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 9
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S16x2048x64, .bf16⟩
  | .hbm, ⟨6, _⟩ => ⟨S16x2048x64, .bf16⟩
  | .hbm, ⟨7, _⟩ => ⟨S16x2048x64, .bf16⟩
  | .hbm, ⟨8, _⟩ => ⟨S16x2048x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x192, .f32⟩
  | .local _ .vmem, ⟨3, _⟩ => ⟨S1x1024x64, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x1024x64, .f32⟩
  | .local _ .vmem, ⟨16, _⟩ => ⟨S1x1024x64, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x64_S1024x64_S1024x64_S1024x192_d1 : Shape.Concatenates [S1024x64, S1024x64, S1024x64] S1024x192 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S1024x192_o0_0_S1024x64 : S1024x192.Slices ![0, 0] S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  slices_S1024x192_o0_64_S1024x64 : S1024x192.Slices ![0, 64] S1024x64
  slices_S1024x192_o0_128_S1024x64 : S1024x192.Slices ![0, 128] S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  iota_S1024x2048_d0_w32 : S1024x2048.Iotas .tc 32 [0]
  iota_S1024x2048_d1_w32 : S1024x2048.Iotas .tc 32 [1]
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  dot_S1024x1024_S1024x192_S1024x192_1_0_0_1_n_n_wf : DotDims.WF S1024x1024 S1024x192 S1024x192 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x2048x1024.size a
  hwx0_0 : ∀ i : grid0.Coords, EltTy.bits .f32 = 32 ∨ (Rect.block (s := S16x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S16x2048x64.size a
  hwx0_2 : ∀ i : grid0.Coords, EltTy.bits .bf16 = 32 ∨ (Rect.block (s := S16x2048x64) S1x1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x2048x64.size a
  hwx0_3 : ∀ i : grid0.Coords, EltTy.bits .bf16 = 32 ∨ (Rect.block (s := S16x2048x64) S1x1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S16x2048x64.size a
  hwx0_4 : ∀ i : grid0.Coords, EltTy.bits .bf16 = 32 ∨ (Rect.block (s := S16x2048x64) S1x1024x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S16x2048x64.size a
  hwx1_0 : ∀ i : grid1.Coords, EltTy.bits .bf16 = 32 ∨ (Rect.block (s := S16x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S16x2048x64.size a
  hwx1_1 : ∀ i : grid1.Coords, EltTy.bits .bf16 = 32 ∨ (Rect.block (s := S16x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S16x2048x64.size a
  hwx1_2 : ∀ i : grid1.Coords, EltTy.bits .bf16 = 32 ∨ (Rect.block (s := S16x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S16x2048x64.size a
  hwx1_3 : ∀ i : grid1.Coords, EltTy.bits .f32 = 32 ∨ (Rect.block (s := S16x2048x64) S1x1024x64.size (cc1_transform_3 i) (hinb1_3 i)).WholeWords (EltTy.packing .f32)

variable [Facts₀]

def dot_S1024x1024_S1024x192_S1024x192_1_0_0_1_n_n : DotDims S1024x1024 S1024x192 S1024x192 where
  lhsContracting := [1]
  rhsContracting := [0]
  lhsNonContracting := [0]
  rhsNonContracting := [1]
  lhsBatch := []
  rhsBatch := []
  wf := dot_S1024x1024_S1024x192_S1024x192_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x1024 : Shape := ⟨3, ![16, 2048, 1024]⟩
abbrev S1024x64 : Shape := ⟨2, ![1024, 64]⟩
abbrev S16x2048x64 : Shape := ⟨3, ![16, 2048, 64]⟩
abbrev S16x2048x2048 : Shape := ⟨3, ![16, 2048, 2048]⟩
abbrev S_ : Shape := ⟨0, ![]⟩
abbrev S2048x2048 : Shape := ⟨2, ![2048, 2048]⟩
abbrev S16x2048 : Shape := ⟨2, ![16, 2048]⟩
abbrev S16x2048x1 : Shape := ⟨3, ![16, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S16x2048x2048, .f32⟩
  | .hbm, ⟨8, _⟩ => ⟨S_, .f32⟩
  | .hbm, ⟨9, _⟩ => ⟨S16x2048x2048, .f32⟩
  | .hbm, ⟨10, _⟩ => ⟨S16x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S16x2048x2048, .i1⟩
  | .hbm, ⟨25, _⟩ => ⟨S16x2048x2048, .f32⟩
  | .hbm, ⟨26, _⟩ => ⟨S16x2048x2048, .f32⟩
  | .hbm, ⟨27, _⟩ => ⟨S_, .f32⟩
  | .hbm, ⟨28, _⟩ => ⟨S16x2048, .f32⟩
  | .hbm, ⟨29, _⟩ => ⟨S_, .f32⟩
  | .hbm, ⟨30, _⟩ => ⟨S16x2048, .f32⟩
  | .hbm, ⟨31, _⟩ => ⟨S16x2048, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x64, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S_S2048x2048 : S_.BroadcastsInDim S2048x2048 (![] : Fin 0 → Fin S2048x2048.rank)
  bcast_S2048x2048_S16x2048x2048_1_2 : S2048x2048.BroadcastsInDim S16x2048x2048 (![1, 2] : Fin 2 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S1024x64_S16x2048x64_2_0_01_1_n_n_wf : DotDims.WF S16x2048x1024 S1024x64 S16x2048x64 [2] [0] [0, 1] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x1024_S1024x64_S16x2048x64_2_0_01_1_n_n : DotDims S16x2048x1024 S1024x64 S16x2048x64 where
  lhsContracting := [2]
  rhsContracting := [0]
  lhsNonContracting := [0, 1]
  rhsNonContracting := [1]
  lhsBatch := []
  rhsBatch := []
  wf := dot_S16x2048x1024_S1024x64_S16x2048x64_2_0_01_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.KProjBody.lean ====
/-
  The projection region (the first pallas_call) of the program, at any float instance and at any contents `V` of the
  device's buffers when the region is entered.

  At grid point `t = (b, j)` the body reads the block `x[b, 1024 j : 1024 (j+1), :]` and the whole concatenated weight
  `[1024, 192]`, multiplies them once, and stores columns 0–63, 64–127 and 128–191 of the product into the three output
  blocks `[b, 1024 j : 1024 (j+1), :]`.  Each output staging buffer is read once before it is overwritten; what was read
  is not used.  This module states what each output buffer holds after the body as a function of the two input blocks
  (`outQ`, `outK`, `outV`), proves the body's triple, and packages the per-point data the pipeline's launch needs.
-/
import proofs.«126121_j90881507983860_2_alg».proof.Proof.Gen.Kernel.Launch
import proofs.«126121_j90881507983860_2_alg».proof.Proof.Gen.Kernel.Skeleton
import proofs.«126121_j90881507983860_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block of `x` is in its staging buffer at every point, for any per-point data whose array is `V`'s and whose
    body leaves the block in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight is in its staging buffer at every point, although it is fetched at the first point only: its block index
    never moves. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole staging buffer -/

abbrev rX : Rect S1x1024x1024 := Rect.unit (s := S1x1024x1024) ![0, 0, 0] S1x1024x1024.size inb_S1x1024x1024_S1x1024x1024_0_0_0
abbrev rW : Rect S1024x192 := Rect.unit (s := S1024x192) ![0, 0] S1024x192.size inb_S1024x192_S1024x192_0_0
abbrev rO : Rect S1x1024x64 := Rect.unit (s := S1x1024x64) ![0, 0, 0] S1x1024x64.size inb_S1x1024x64_S1x1024x64_0_0_0

/-! ## What the body leaves in each output buffer -/

/-- The first output buffer after the body: columns 0–63 of the product of the two input blocks. -/
def outQ (x0 : Vec F S1x1024x1024 .f32) (x1 : Vec F S1024x192 .f32) : Vec F S1x1024x64 .bf16 :=
  View.canon [⟨rO, k0_pay2 (View.ld x0 rX) (View.ld x1 rW)⟩]
/-- The second: columns 64–127. -/
def outK (x0 : Vec F S1x1024x1024 .f32) (x1 : Vec F S1024x192 .f32) : Vec F S1x1024x64 .bf16 :=
  View.canon [⟨rO, k0_pay3 (View.ld x0 rX) (View.ld x1 rW)⟩]
/-- The third: columns 128–191. -/
def outV (x0 : Vec F S1x1024x1024 .f32) (x1 : Vec F S1024x192 .f32) : Vec F S1x1024x64 .bf16 :=
  View.canon [⟨rO, k0_pay4 (View.ld x0 rX) (View.ld x1 rW)⟩]

/-- One store of the whole buffer covers it. -/
theorem coverO (p0 : Vec F S1x1024x64 .bf16) (y : S1x1024x64.Idx) :
    ∃ pc ∈ ([⟨rO, p0⟩] : List (View.Piece (Elt F) S1x1024x64 .bf16)), y ∈ pc.1.set :=
  View.cover_of_tiled [⟨rO, p0⟩] S1x1024x64.size (by rfl) y

/-! ## The body's triple -/

set_option maxHeartbeats 1000000 in
/-- The body on whole staging memrefs — the inputs' at contents `x0`, `x1`, the outputs' at anything — runs to the
    continuation holding the inputs' as they were and the outputs' at `outQ`, `outK`, `outV` of the inputs. -/
theorem sound_kernel (c : Dev nD) (E : Set ℕ) (i : grid0.Coords)
    (arg2 : Memref sig .tc .vmem S1x1024x1024 .f32) (harg2 : arg2.IsWhole) (arg3 : Memref sig .tc .vmem S1024x192 .f32) (harg3 : arg3.IsWhole)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole)
    (x0 : Vec F S1x1024x1024 .f32) (x1 : Vec F S1024x192 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (outQ x0 x1) ∗ owns (c : Thread nD τ) arg5 fullShare (outK x0 x1)
            ∗ owns (c : Thread nD τ) arg6 fullShare (outV x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverO _)
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

/-! ## The pipeline's per-point data -/

/-- The region's data on core `c`: the arrays as the region finds them; after the body at point `t` each input buffer
    at its block and each output buffer at its function of the input blocks; the invariant the scoped rest and the
    random-number register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outQ (iblk V c 0 t) (iblk V c 1 t)
    | ⟨3, _⟩ => outK (iblk V c 0 t) (iblk V c 1 t)
    | ⟨4, _⟩ => outV (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_q (c : Dev nD) (t : Fin cfg0.N) : (dat V c).after 2 t = outQ (iblk V c 0 t) (iblk V c 1 t) := by dsimp only [dat]
theorem after_k (c : Dev nD) (t : Fin cfg0.N) : (dat V c).after 3 t = outK (iblk V c 0 t) (iblk V c 1 t) := by dsimp only [dat]
theorem after_v (c : Dev nD) (t : Fin cfg0.N) : (dat V c).after 4 t = outV (iblk V c 0 t) (iblk V c 1 t) := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_q, after_k, after_v]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.KAttnBody.lean ====
/-
  The attention region (the second pallas_call) of the program, at any float instance and at any contents `V` of the
  device's buffers when the region is entered.

  At grid point `t = (b, j)` the body reads the query block `[b, 1024 j : 1024 (j+1), :]` and the whole key and value
  arrays of batch `b`, forms the scaled scores, masks the key positions after the query position (the query position
  is `1024 j` plus the row inside the block, so the stored value depends on the grid point), takes each row's maximum,
  exponentiates, sums, multiplies by the values and divides by the row sum; it stores the result into the output block
  `[b, 1024 j : 1024 (j+1), :]`.  The output staging buffer is read once before it is overwritten; what was read is not
  used.  This module states what the output buffer holds after the body (`outO`), proves the body's triple, and
  packages the per-point data the pipeline's launch needs.
-/
import proofs.«126121_j90881507983860_2_alg».proof.Proof.Gen.Kernel.Launch
import proofs.«126121_j90881507983860_2_alg».proof.Proof.Gen.Kernel.Skeleton
import proofs.«126121_j90881507983860_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block is in its staging buffer at every point. -/
theorem before_q_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The batch's keys are in their staging buffer at every point, fetched only when the batch changes. -/
theorem before_k_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The batch's values likewise. -/
theorem before_v_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole staging buffer -/

abbrev rQ : Rect S1x1024x64 := Rect.unit (s := S1x1024x64) ![0, 0, 0] S1x1024x64.size inb_S1x1024x64_S1x1024x64_0_0_0
abbrev rKV : Rect S1x2048x64 := Rect.unit (s := S1x2048x64) ![0, 0, 0] S1x2048x64.size inb_S1x2048x64_S1x2048x64_0_0_0

/-! ## What the body leaves in the output buffer -/

/-- The output buffer after the body at grid coordinates `i`: the attention of the query block over the batch's keys
    and values. -/
def outO (i : grid1.Coords) (x0 : Vec F S1x1024x64 .bf16) (x1 x2 : Vec F S1x2048x64 .bf16) : Vec F S1x1024x64 .f32 :=
  View.canon [⟨rQ, k1_pay1 i (View.ld x0 rQ) (View.ld x1 rKV) (View.ld x2 rKV)⟩]

/-- One store of the whole buffer covers it. -/
theorem coverO (p0 : Vec F S1x1024x64 .f32) (y : S1x1024x64.Idx) :
    ∃ pc ∈ ([⟨rQ, p0⟩] : List (View.Piece (Elt F) S1x1024x64 .f32)), y ∈ pc.1.set :=
  View.cover_of_tiled [⟨rQ, p0⟩] S1x1024x64.size (by rfl) y

/-! ## The body's triple -/

set_option maxHeartbeats 1000000 in
/-- The body on whole staging memrefs — the inputs' at contents `x0`, `x1`, `x2`, the output's at anything — runs to the
    continuation holding the inputs' as they were and the output's at `outO` of the inputs. -/
theorem sound_kernel (c : Dev nD) (E : Set ℕ) (i : grid1.Coords)
    (arg2 : Memref sig .tc .vmem S1x1024x64 .bf16) (harg2 : arg2.IsWhole) (arg3 : Memref sig .tc .vmem S1x2048x64 .bf16) (harg3 : arg3.IsWhole)
    (arg4 : Memref sig .tc .vmem S1x2048x64 .bf16) (harg4 : arg4.IsWhole) (arg5 : Memref sig .tc .vmem S1x1024x64 .f32) (harg5 : arg5.IsWhole)
    (x0 : Vec F S1x1024x64 .bf16) (x1 x2 : Vec F S1x2048x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outO i x0 x1 x2)) -∗ K ⟨⟩))
      ⊢ wp frame (wpE (defs₀ (F := F)) Variants.none c none) E (cc1_attn_kernel i arg2 harg2 arg3 harg3 arg4 harg4 arg5 harg5) K := by
  simp only [cc1_attn_kernel_eq_skeleton]; unfold cc1_attn_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The pipeline's per-point data -/

/-- The region's data on core `c`: the arrays as the region finds them; after the body at point `t` each input buffer
    at its block and the output buffer at its function of the input blocks and the point's coordinates; the invariant
    the scoped rest and the random-number register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outO (grid1.coords t) (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_q (c : Dev nD) (t : Fin cfg1.N) : (dat V c).after 0 t = iblk V c 0 t := by dsimp only [dat]
theorem after_k (c : Dev nD) (t : Fin cfg1.N) : (dat V c).after 1 t = iblk V c 1 t := by dsimp only [dat]
theorem after_v (c : Dev nD) (t : Fin cfg1.N) : (dat V c).after 2 t = iblk V c 2 t := by dsimp only [dat]
theorem after_o (c : Dev nD) (t : Fin cfg1.N) :
    (dat V c).after 3 t = outO (grid1.coords t) (iblk V c 0 t) (iblk V c 1 t) (iblk V c 2 t) := by dsimp only [dat]

theorem before_q (c : Dev nD) (t : Fin cfg1.N) (d) : (dat V c).before 0 t d = iblk V c 0 t :=
  before_q_of V (dat V c) (A_eq V c 0) (after_q V c) t d
theorem before_k (c : Dev nD) (t : Fin cfg1.N) (d) : (dat V c).before 1 t d = iblk V c 1 t :=
  before_k_of V (dat V c) (A_eq V c 1) (after_k V c) t d
theorem before_v (c : Dev nD) (t : Fin cfg1.N) (d) : (dat V c).before 2 t d = iblk V c 2 t :=
  before_v_of V (dat V c) (A_eq V c 2) (after_v V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so the triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).Φ t.succ = (dat V c).Φ t.castSucc from rfl,
    show (dat V c).owesAt () t.succ = (dat V c).owesAt () t.castSucc from rfl,
    after_q, after_k, after_v, after_o]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation (c : Dev nD) : BodyObligation (dat (F := F) V c) (defs₀ (F := F)) Variants.none () Set.univ := fun t => by
  rw [bigSep_W1, bigSep_W1]
  exact sound_body V c t

end Cert.Kernel.Attn

end
-- ==== Proof.KRun.lean ====
/-
  The whole run of the program, at any float instance: a host stretch (the three weights concatenated along their
  columns), the projection region, the attention region.

  The device's buffer contents are followed from the launch through the three segments: after the host stretch
  (`Wh`), after the projection region (`Wp`: its three output arrays at what the pipeline's write-backs leave, everything
  else as before), after the attention region (`Wa`: likewise its one output array).  Each region is entered from
  "every unscoped buffer at the boundary's contents, the random-number register at some state, nothing owed" and left in the
  same form.  The run's post says every unscoped buffer ends at `Wa`; the four argument arrays are read back through the
  boundaries to the launch memory (no segment writes one), which is the frame claim.
-/
import proofs.«126121_j90881507983860_2_alg».proof.Proof.KProjBody
import proofs.«126121_j90881507983860_2_alg».proof.Proof.KAttnBody

-- membership in a rectangle of these extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev Wl : Dev nD → Valuation τ sig (Elt F) := fun c b => (s₀ m ρ).mem ((c : Dev nD), b)
/-- After the host stretch (the projection region's entry). -/
abbrev Wh : Dev nD → Valuation τ sig (Elt F) := fun c => StableHlo.after hostOps0 (Wl m ρ c)
/-- The same read at the TensorCore's references. -/
abbrev Vh : (c : Dev nD) → (b : Ref sig .tc) → Buf (Elt F) ((c : Thread nD τ).loc b) := fun c b => Wh m ρ c b
/-- At the projection region's exit: its arrays at what the pipeline leaves, every other buffer as entered. -/
def Wp (c : Dev nD) : Valuation τ sig (Elt F) :=
  Pipeline.withArrays spec0 c (Wh m ρ c) fun w => (Proj.dat (Vh m ρ) c).arrAt w cfg0.N
theorem Wp_arr (c : Dev nD) (w : Fin cfg0.W) :
    Wp m ρ c (Proc.devRef .tc (Pipeline.arrRef spec0 w)) = (Proj.dat (Vh m ρ) c).arrAt w cfg0.N := by
  unfold Wp; exact Pipeline.withArrays_arr spec0 launch0.win.arr_inj c _ _ w
theorem Wp_of_ne (c : Dev nD) (b : Ref sig .tc) (hb : ∀ w, Pipeline.arrRef spec0 w ≠ b) :
    Wp m ρ c (Proc.devRef .tc b) = Wh m ρ c (Proc.devRef .tc b) := by
  unfold Wp; exact Pipeline.withArrays_of_ne spec0 c _ _ b hb
/-- The same read at the TensorCore's references (the attention region's entry). -/
abbrev Vp : (c : Dev nD) → (b : Ref sig .tc) → Buf (Elt F) ((c : Thread nD τ).loc b) := fun c b => Wp m ρ c b
theorem hFp (c : Dev nD) (w : Fin cfg0.W) : (Proj.dat (Vh m ρ) c).arrAt w cfg0.N = Vp m ρ c (Pipeline.arrRef spec0 w) :=
  (Wp_arr m ρ c w).symm
theorem hrestp (c : Dev nD) : ∀ b, b ∉ Finset.univ.image (Pipeline.arrRef spec0) → Vp m ρ c b = Vh m ρ c b :=
  fun b hb => Wp_of_ne m ρ c b fun w e => hb (Finset.mem_image.mpr ⟨w, Finset.mem_univ _, e⟩)

/-- At the attention region's exit: its arrays at what the pipeline leaves, every other buffer as entered. -/
def Wa (c : Dev nD) : Valuation τ sig (Elt F) :=
  Pipeline.withArrays spec1 c (Wp m ρ c) fun w => (Attn.dat (Vp m ρ) c).arrAt w cfg1.N
theorem Wa_arr (c : Dev nD) (w : Fin cfg1.W) :
    Wa m ρ c (Proc.devRef .tc (Pipeline.arrRef spec1 w)) = (Attn.dat (Vp m ρ) c).arrAt w cfg1.N := by
  unfold Wa; exact Pipeline.withArrays_arr spec1 launch1.win.arr_inj c _ _ w
theorem Wa_of_ne (c : Dev nD) (b : Ref sig .tc) (hb : ∀ w, Pipeline.arrRef spec1 w ≠ b) :
    Wa m ρ c (Proc.devRef .tc b) = Wp m ρ c (Proc.devRef .tc b) := by
  unfold Wa; exact Pipeline.withArrays_of_ne spec1 c _ _ b hb
abbrev Va : (c : Dev nD) → (b : Ref sig .tc) → Buf (Elt F) ((c : Thread nD τ).loc b) := fun c b => Wa m ρ c b
theorem hFa (c : Dev nD) (w : Fin cfg1.W) : (Attn.dat (Vp m ρ) c).arrAt w cfg1.N = Va m ρ c (Pipeline.arrRef spec1 w) :=
  (Wa_arr m ρ c w).symm
theorem hresta (c : Dev nD) : ∀ b, b ∉ Finset.univ.image (Pipeline.arrRef spec1) → Va m ρ c b = Vp m ρ c b :=
  fun b hb => Wa_of_ne m ρ c b fun w e => hb (Finset.mem_image.mpr ⟨w, Finset.mem_univ _, e⟩)

/-! ### The arguments end as launched -/

/-- The host stretch writes the concatenated weight only. -/
theorem Wh_of_ne (c : Dev nD) (b : Ref sig .tc) (hb : b ≠ main_v0) :
    Wh m ρ c (Proc.devRef .tc b) = Wl m ρ c (Proc.devRef .tc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem Wa_main_arg0 (c : Dev nD) : Wa m ρ c (Proc.devRef .tc main_arg0) = m ((c : Thread nD τ).loc main_arg0) :=
  calc Wa m ρ c (Proc.devRef .tc main_arg0)
    _ = Wp m ρ c (Proc.devRef .tc main_arg0) := Wa_of_ne m ρ c main_arg0 (by decide)
    _ = Wh m ρ c (Proc.devRef .tc main_arg0) := (Wp_arr m ρ c 0).trans (((Proj.dat (Vh m ρ) c).arrAt_in 0 rfl _).trans (Proj.A_eq (Vh m ρ) c 0))
    _ = Wl m ρ c (Proc.devRef .tc main_arg0) := Wh_of_ne m ρ c main_arg0 (by decide)
    _ = m ((c : Thread nD τ).loc main_arg0) := rfl
theorem Wa_main_arg1 (c : Dev nD) : Wa m ρ c (Proc.devRef .tc main_arg1) = m ((c : Thread nD τ).loc main_arg1) :=
  calc Wa m ρ c (Proc.devRef .tc main_arg1)
    _ = Wp m ρ c (Proc.devRef .tc main_arg1) := Wa_of_ne m ρ c main_arg1 (by decide)
    _ = Wh m ρ c (Proc.devRef .tc main_arg1) := Wp_of_ne m ρ c main_arg1 (by decide)
    _ = Wl m ρ c (Proc.devRef .tc main_arg1) := Wh_of_ne m ρ c main_arg1 (by decide)
    _ = m ((c : Thread nD τ).loc main_arg1) := rfl
theorem Wa_main_arg2 (c : Dev nD) : Wa m ρ c (Proc.devRef .tc main_arg2) = m ((c : Thread nD τ).loc main_arg2) :=
  calc Wa m ρ c (Proc.devRef .tc main_arg2)
    _ = Wp m ρ c (Proc.devRef .tc main_arg2) := Wa_of_ne m ρ c main_arg2 (by decide)
    _ = Wh m ρ c (Proc.devRef .tc main_arg2) := Wp_of_ne m ρ c main_arg2 (by decide)
    _ = Wl m ρ c (Proc.devRef .tc main_arg2) := Wh_of_ne m ρ c main_arg2 (by decide)
    _ = m ((c : Thread nD τ).loc main_arg2) := rfl
theorem Wa_main_arg3 (c : Dev nD) : Wa m ρ c (Proc.devRef .tc main_arg3) = m ((c : Thread nD τ).loc main_arg3) :=
  calc Wa m ρ c (Proc.devRef .tc main_arg3)
    _ = Wp m ρ c (Proc.devRef .tc main_arg3) := Wa_of_ne m ρ c main_arg3 (by decide)
    _ = Wh m ρ c (Proc.devRef .tc main_arg3) := Wp_of_ne m ρ c main_arg3 (by decide)
    _ = Wl m ρ c (Proc.devRef .tc main_arg3) := Wh_of_ne m ρ c main_arg3 (by decide)
    _ = m ((c : Thread nD τ).loc main_arg3) := rfl

/-! ## The per-point data of both pipelines and the thread state -/

/-- No pipeline has a prefetched table. -/
abbrev adm : (p : Fin 2) → (pcfgs (F := F) p).Adm := fun p => (cfgs p).toPCfg_adm
/-- Every pipeline's data, each at its region's entry contents. -/
def pdats : (p : Fin 2) → (c : Dev nD) → Dat τ (Elt F) Unit ℕ (UR sig nD τ) ℕ (Pipeline.pin (pcfgs (F := F)) adm p) c
  | ⟨0, _⟩ => fun c => Proj.dat (Vh m ρ) c
  | ⟨1, _⟩ => fun c => Attn.dat (Vp m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the random-number register at some state and the core's dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The concatenation allocates no buffer. -/
theorem hostOps0_noalloc : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `Wa`, the random-number register at some state. -/
abbrev Tₙ (c : Dev nD) : sProp 𝕄 := iprop(StableHlo.held (c : Thread nD τ) (Pipeline.ucRefs τ sig) (Wa m ρ c) ∗ ∃ r, prngReg c r)

/-! ## The regions as segments -/

set_option backward.isDefEq.respectTransparency.types false in
/-- The projection region over the thread state: entered from every unscoped buffer at `Wh`, left at `Wp`. Its arrays
    are split out of the unscoped buffers and put back at the exit contents; the random-number register goes into the
    region's invariant and comes out; nothing is owed; the kernel has no semaphore of its own. -/
def regProj : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (Vh m ρ) c).loose
  hwaits := Pipeline.hwaits_of_owed_zero _ _ _ _ L lv 0 fun _ _ => rfl
  pre c := iprop(StableHlo.held (c : Thread nD τ) (Pipeline.ucRefs τ sig) (Wh m ρ c) ∗ R c)
  post c := iprop(StableHlo.held (c : Thread nD τ) (Pipeline.ucRefs τ sig) (Wp m ρ c) ∗ R c)
  X c := iprop(∃ r, prngReg c r)
  Y c := iprop(∃ r, prngReg c r)
  Z c := Pipeline.unscopedRest (Ix := Unit) (Name := ℕ) (U := UR sig nD τ) (Lvl := ℕ) spec0 c (Vh m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vh m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vh m ρ c) (Vp m ρ c) ((pdats m ρ 0 c).arrAt · cfg0.N) (hFp m ρ c) (hrestp m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `Wp`, left at `Wa` (what the
    launch reads at the end). -/
def regAttn : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (Vp m ρ) c).loose
  hwaits := Pipeline.hwaits_of_owed_zero _ _ _ _ L lv 1 fun _ _ => rfl
  pre c := iprop(StableHlo.held (c : Thread nD τ) (Pipeline.ucRefs τ sig) (Wp m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vp m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vp m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vp m ρ c) (Va m ρ c) ((pdats m ρ 1 c).arrAt · cfg1.N) (hFa m ρ c) (hresta m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The three segments in order. -/
abbrev segs : List (Pipeline.Seg (pcfgs (F := F)) adm (pdats m ρ) () defs₀ 𝒱₀ L lv) :=
  [ .host (hseg hostOps0 hostOps0_sub hostOps0_noalloc (Wl m ρ)),
    .region (regProj m ρ),
    .region (regAttn m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final state holds every unscoped buffer at `Wa`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa m ρ c) s')
      isplitl [Hh] <;> iassumption)
    (hQ := fun s h c => h c)

/-- THE FRAME: the program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wa_main_arg0 m ρ c),
     (h c _ (mem_uc main_arg1 (by decide))).trans (Wa_main_arg1 m ρ c),
     (h c _ (mem_uc main_arg2 (by decide))).trans (Wa_main_arg2 m ρ c),
     (h c _ (mem_uc main_arg3 (by decide))).trans (Wa_main_arg3 m ρ c)⟩) (run_all m ρ)

end Cert.Kernel.Run

end
-- ==== Proof.KIProjBody.lean ====
/-
  The projection region (the first pallas_call) of the program, at any float instance and at any contents `V` of the
  device's buffers when the region is entered.

  At grid point `t = (b, j)` the body reads the block `x[b, 1024 j : 1024 (j+1), :]` and the whole concatenated weight
  `[1024, 192]`, multiplies them once, and stores columns 0–63, 64–127 and 128–191 of the product into the three output
  blocks `[b, 1024 j : 1024 (j+1), :]`.  Each output staging buffer is read once before it is overwritten; what was read
  is not used.  This module states what each output buffer holds after the body as a function of the two input blocks
  (`outQ`, `outK`, `outV`), proves the body's triple, and packages the per-point data the pipeline's launch needs.
-/
import proofs.«126121_j90881507983860_2_alg».proof.Proof.Gen.KernelIdeal.Launch
import proofs.«126121_j90881507983860_2_alg».proof.Proof.Gen.KernelIdeal.Skeleton
import proofs.«126121_j90881507983860_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the device's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block of `x` is in its staging buffer at every point, for any per-point data whose array is `V`'s and whose
    body leaves the block in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight is in its staging buffer at every point, although it is fetched at the first point only: its block index
    never moves. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole staging buffer -/

abbrev rX : Rect S1x1024x1024 := Rect.unit (s := S1x1024x1024) ![0, 0, 0] S1x1024x1024.size inb_S1x1024x1024_S1x1024x1024_0_0_0
abbrev rW : Rect S1024x192 := Rect.unit (s := S1024x192) ![0, 0] S1024x192.size inb_S1024x192_S1024x192_0_0
abbrev rO : Rect S1x1024x64 := Rect.unit (s := S1x1024x64) ![0, 0, 0] S1x1024x64.size inb_S1x1024x64_S1x1024x64_0_0_0

/-! ## What the body leaves in each output buffer -/

/-- The first output buffer after the body: columns 0–63 of the product of the two input blocks. -/
def outQ (x0 : Vec F S1x1024x1024 .f32) (x1 : Vec F S1024x192 .f32) : Vec F S1x1024x64 .bf16 :=
  View.canon [⟨rO, k0_pay2 (View.ld x0 rX) (View.ld x1 rW)⟩]
/-- The second: columns 64–127. -/
def outK (x0 : Vec F S1x1024x1024 .f32) (x1 : Vec F S1024x192 .f32) : Vec F S1x1024x64 .bf16 :=
  View.canon [⟨rO, k0_pay3 (View.ld x0 rX) (View.ld x1 rW)⟩]
/-- The third: columns 128–191. -/
def outV (x0 : Vec F S1x1024x1024 .f32) (x1 : Vec F S1024x192 .f32) : Vec F S1x1024x64 .bf16 :=
  View.canon [⟨rO, k0_pay4 (View.ld x0 rX) (View.ld x1 rW)⟩]

/-- One store of the whole buffer covers it. -/
theorem coverO (p0 : Vec F S1x1024x64 .bf16) (y : S1x1024x64.Idx) :
    ∃ pc ∈ ([⟨rO, p0⟩] : List (View.Piece (Elt F) S1x1024x64 .bf16)), y ∈ pc.1.set :=
  View.cover_of_tiled [⟨rO, p0⟩] S1x1024x64.size (by rfl) y

/-! ## The body's triple -/

set_option maxHeartbeats 1000000 in
/-- The body on whole staging memrefs — the inputs' at contents `x0`, `x1`, the outputs' at anything — runs to the
    continuation holding the inputs' as they were and the outputs' at `outQ`, `outK`, `outV` of the inputs. -/
theorem sound_kernel (c : Dev nD) (E : Set ℕ) (i : grid0.Coords)
    (arg2 : Memref sig .tc .vmem S1x1024x1024 .f32) (harg2 : arg2.IsWhole) (arg3 : Memref sig .tc .vmem S1024x192 .f32) (harg3 : arg3.IsWhole)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole)
    (x0 : Vec F S1x1024x1024 .f32) (x1 : Vec F S1024x192 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (outQ x0 x1) ∗ owns (c : Thread nD τ) arg5 fullShare (outK x0 x1)
            ∗ owns (c : Thread nD τ) arg6 fullShare (outV x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverO _)
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

/-! ## The pipeline's per-point data -/

/-- The region's data on core `c`: the arrays as the region finds them; after the body at point `t` each input buffer
    at its block and each output buffer at its function of the input blocks; the invariant the scoped rest and the
    random-number register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outQ (iblk V c 0 t) (iblk V c 1 t)
    | ⟨3, _⟩ => outK (iblk V c 0 t) (iblk V c 1 t)
    | ⟨4, _⟩ => outV (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_q (c : Dev nD) (t : Fin cfg0.N) : (dat V c).after 2 t = outQ (iblk V c 0 t) (iblk V c 1 t) := by dsimp only [dat]
theorem after_k (c : Dev nD) (t : Fin cfg0.N) : (dat V c).after 3 t = outK (iblk V c 0 t) (iblk V c 1 t) := by dsimp only [dat]
theorem after_v (c : Dev nD) (t : Fin cfg0.N) : (dat V c).after 4 t = outV (iblk V c 0 t) (iblk V c 1 t) := by dsimp only [dat]

theorem before_x (c : Dev nD) (t : Fin cfg0.N) (d) : (dat V c).before 0 t d = iblk V c 0 t :=
  before_x_of V (dat V c) (A_eq V c 0) (after_x V c) t d
theorem before_w (c : Dev nD) (t : Fin cfg0.N) (d) : (dat V c).before 1 t d = iblk V c 1 t :=
  before_w_of V (dat V c) (A_eq V c 1) (after_w V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_q, after_k, after_v]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.KIAttnBody.lean ====
/-
  The attention region (the second pallas_call) of the program, at any float instance and at any contents `V` of the
  device's buffers when the region is entered.

  At grid point `t = (b, j)` the body reads the query block `[b, 1024 j : 1024 (j+1), :]` and the whole key and value
  arrays of batch `b`, forms the scaled scores, masks the key positions after the query position (the query position
  is `1024 j` plus the row inside the block, so the stored value depends on the grid point), takes each row's maximum,
  exponentiates, sums, multiplies by the values and divides by the row sum; it stores the result into the output block
  `[b, 1024 j : 1024 (j+1), :]`.  The output staging buffer is read once before it is overwritten; what was read is not
  used.  This module states what the output buffer holds after the body (`outO`), proves the body's triple, and
  packages the per-point data the pipeline's launch needs.
-/
import proofs.«126121_j90881507983860_2_alg».proof.Proof.Gen.KernelIdeal.Launch
import proofs.«126121_j90881507983860_2_alg».proof.Proof.Gen.KernelIdeal.Skeleton
import proofs.«126121_j90881507983860_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the device's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block is in its staging buffer at every point. -/
theorem before_q_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The batch's keys are in their staging buffer at every point, fetched only when the batch changes. -/
theorem before_k_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The batch's values likewise. -/
theorem before_v_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole staging buffer -/

abbrev rQ : Rect S1x1024x64 := Rect.unit (s := S1x1024x64) ![0, 0, 0] S1x1024x64.size inb_S1x1024x64_S1x1024x64_0_0_0
abbrev rKV : Rect S1x2048x64 := Rect.unit (s := S1x2048x64) ![0, 0, 0] S1x2048x64.size inb_S1x2048x64_S1x2048x64_0_0_0

/-! ## What the body leaves in the output buffer -/

/-- The output buffer after the body at grid coordinates `i`: the attention of the query block over the batch's keys
    and values. -/
def outO (i : grid1.Coords) (x0 : Vec F S1x1024x64 .bf16) (x1 x2 : Vec F S1x2048x64 .bf16) : Vec F S1x1024x64 .f32 :=
  View.canon [⟨rQ, k1_pay1 i (View.ld x0 rQ) (View.ld x1 rKV) (View.ld x2 rKV)⟩]

/-- One store of the whole buffer covers it. -/
theorem coverO (p0 : Vec F S1x1024x64 .f32) (y : S1x1024x64.Idx) :
    ∃ pc ∈ ([⟨rQ, p0⟩] : List (View.Piece (Elt F) S1x1024x64 .f32)), y ∈ pc.1.set :=
  View.cover_of_tiled [⟨rQ, p0⟩] S1x1024x64.size (by rfl) y

/-! ## The body's triple -/

set_option maxHeartbeats 1000000 in
/-- The body on whole staging memrefs — the inputs' at contents `x0`, `x1`, `x2`, the output's at anything — runs to the
    continuation holding the inputs' as they were and the output's at `outO` of the inputs. -/
theorem sound_kernel (c : Dev nD) (E : Set ℕ) (i : grid1.Coords)
    (arg2 : Memref sig .tc .vmem S1x1024x64 .bf16) (harg2 : arg2.IsWhole) (arg3 : Memref sig .tc .vmem S1x2048x64 .bf16) (harg3 : arg3.IsWhole)
    (arg4 : Memref sig .tc .vmem S1x2048x64 .bf16) (harg4 : arg4.IsWhole) (arg5 : Memref sig .tc .vmem S1x1024x64 .f32) (harg5 : arg5.IsWhole)
    (x0 : Vec F S1x1024x64 .bf16) (x1 x2 : Vec F S1x2048x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outO i x0 x1 x2)) -∗ K ⟨⟩))
      ⊢ wp frame (wpE (defs₀ (F := F)) Variants.none c none) E (cc1_attn_kernel i arg2 harg2 arg3 harg3 arg4 harg4 arg5 harg5) K := by
  simp only [cc1_attn_kernel_eq_skeleton]; unfold cc1_attn_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The pipeline's per-point data -/

/-- The region's data on core `c`: the arrays as the region finds them; after the body at point `t` each input buffer
    at its block and the output buffer at its function of the input blocks and the point's coordinates; the invariant
    the scoped rest and the random-number register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outO (grid1.coords t) (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_q (c : Dev nD) (t : Fin cfg1.N) : (dat V c).after 0 t = iblk V c 0 t := by dsimp only [dat]
theorem after_k (c : Dev nD) (t : Fin cfg1.N) : (dat V c).after 1 t = iblk V c 1 t := by dsimp only [dat]
theorem after_v (c : Dev nD) (t : Fin cfg1.N) : (dat V c).after 2 t = iblk V c 2 t := by dsimp only [dat]
theorem after_o (c : Dev nD) (t : Fin cfg1.N) :
    (dat V c).after 3 t = outO (grid1.coords t) (iblk V c 0 t) (iblk V c 1 t) (iblk V c 2 t) := by dsimp only [dat]

theorem before_q (c : Dev nD) (t : Fin cfg1.N) (d) : (dat V c).before 0 t d = iblk V c 0 t :=
  before_q_of V (dat V c) (A_eq V c 0) (after_q V c) t d
theorem before_k (c : Dev nD) (t : Fin cfg1.N) (d) : (dat V c).before 1 t d = iblk V c 1 t :=
  before_k_of V (dat V c) (A_eq V c 1) (after_k V c) t d
theorem before_v (c : Dev nD) (t : Fin cfg1.N) (d) : (dat V c).before 2 t d = iblk V c 2 t :=
  before_v_of V (dat V c) (A_eq V c 2) (after_v V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so the triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).Φ t.succ = (dat V c).Φ t.castSucc from rfl,
    show (dat V c).owesAt () t.succ = (dat V c).owesAt () t.castSucc from rfl,
    after_q, after_k, after_v, after_o]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation (c : Dev nD) : BodyObligation (dat (F := F) V c) (defs₀ (F := F)) Variants.none () Set.univ := fun t => by
  rw [bigSep_W1, bigSep_W1]
  exact sound_body V c t

end Cert.KernelIdeal.Attn

end
-- ==== Proof.KIRun.lean ====
/-
  The whole run of the program, at any float instance: a host stretch (the three weights concatenated along their
  columns), the projection region, the attention region.

  The device's buffer contents are followed from the launch through the three segments: after the host stretch
  (`Wh`), after the projection region (`Wp`: its three output arrays at what the pipeline's write-backs leave, everything
  else as before), after the attention region (`Wa`: likewise its one output array).  Each region is entered from
  "every unscoped buffer at the boundary's contents, the random-number register at some state, nothing owed" and left in the
  same form.  The run's post says every unscoped buffer ends at `Wa`; the four argument arrays are read back through the
  boundaries to the launch memory (no segment writes one), which is the frame claim.
-/
import proofs.«126121_j90881507983860_2_alg».proof.Proof.KIProjBody
import proofs.«126121_j90881507983860_2_alg».proof.Proof.KIAttnBody

-- membership in a rectangle of these extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev Wl : Dev nD → Valuation τ sig (Elt F) := fun c b => (s₀ m ρ).mem ((c : Dev nD), b)
/-- After the host stretch (the projection region's entry). -/
abbrev Wh : Dev nD → Valuation τ sig (Elt F) := fun c => StableHlo.after hostOps0 (Wl m ρ c)
/-- The same read at the TensorCore's references. -/
abbrev Vh : (c : Dev nD) → (b : Ref sig .tc) → Buf (Elt F) ((c : Thread nD τ).loc b) := fun c b => Wh m ρ c b
/-- At the projection region's exit: its arrays at what the pipeline leaves, every other buffer as entered. -/
def Wp (c : Dev nD) : Valuation τ sig (Elt F) :=
  Pipeline.withArrays spec0 c (Wh m ρ c) fun w => (Proj.dat (Vh m ρ) c).arrAt w cfg0.N
theorem Wp_arr (c : Dev nD) (w : Fin cfg0.W) :
    Wp m ρ c (Proc.devRef .tc (Pipeline.arrRef spec0 w)) = (Proj.dat (Vh m ρ) c).arrAt w cfg0.N := by
  unfold Wp; exact Pipeline.withArrays_arr spec0 launch0.win.arr_inj c _ _ w
theorem Wp_of_ne (c : Dev nD) (b : Ref sig .tc) (hb : ∀ w, Pipeline.arrRef spec0 w ≠ b) :
    Wp m ρ c (Proc.devRef .tc b) = Wh m ρ c (Proc.devRef .tc b) := by
  unfold Wp; exact Pipeline.withArrays_of_ne spec0 c _ _ b hb
/-- The same read at the TensorCore's references (the attention region's entry). -/
abbrev Vp : (c : Dev nD) → (b : Ref sig .tc) → Buf (Elt F) ((c : Thread nD τ).loc b) := fun c b => Wp m ρ c b
theorem hFp (c : Dev nD) (w : Fin cfg0.W) : (Proj.dat (Vh m ρ) c).arrAt w cfg0.N = Vp m ρ c (Pipeline.arrRef spec0 w) :=
  (Wp_arr m ρ c w).symm
theorem hrestp (c : Dev nD) : ∀ b, b ∉ Finset.univ.image (Pipeline.arrRef spec0) → Vp m ρ c b = Vh m ρ c b :=
  fun b hb => Wp_of_ne m ρ c b fun w e => hb (Finset.mem_image.mpr ⟨w, Finset.mem_univ _, e⟩)

/-- At the attention region's exit: its arrays at what the pipeline leaves, every other buffer as entered. -/
def Wa (c : Dev nD) : Valuation τ sig (Elt F) :=
  Pipeline.withArrays spec1 c (Wp m ρ c) fun w => (Attn.dat (Vp m ρ) c).arrAt w cfg1.N
theorem Wa_arr (c : Dev nD) (w : Fin cfg1.W) :
    Wa m ρ c (Proc.devRef .tc (Pipeline.arrRef spec1 w)) = (Attn.dat (Vp m ρ) c).arrAt w cfg1.N := by
  unfold Wa; exact Pipeline.withArrays_arr spec1 launch1.win.arr_inj c _ _ w
theorem Wa_of_ne (c : Dev nD) (b : Ref sig .tc) (hb : ∀ w, Pipeline.arrRef spec1 w ≠ b) :
    Wa m ρ c (Proc.devRef .tc b) = Wp m ρ c (Proc.devRef .tc b) := by
  unfold Wa; exact Pipeline.withArrays_of_ne spec1 c _ _ b hb
abbrev Va : (c : Dev nD) → (b : Ref sig .tc) → Buf (Elt F) ((c : Thread nD τ).loc b) := fun c b => Wa m ρ c b
theorem hFa (c : Dev nD) (w : Fin cfg1.W) : (Attn.dat (Vp m ρ) c).arrAt w cfg1.N = Va m ρ c (Pipeline.arrRef spec1 w) :=
  (Wa_arr m ρ c w).symm
theorem hresta (c : Dev nD) : ∀ b, b ∉ Finset.univ.image (Pipeline.arrRef spec1) → Va m ρ c b = Vp m ρ c b :=
  fun b hb => Wa_of_ne m ρ c b fun w e => hb (Finset.mem_image.mpr ⟨w, Finset.mem_univ _, e⟩)

/-! ### The arguments end as launched -/

/-- The host stretch writes the concatenated weight only. -/
theorem Wh_of_ne (c : Dev nD) (b : Ref sig .tc) (hb : b ≠ main_v0) :
    Wh m ρ c (Proc.devRef .tc b) = Wl m ρ c (Proc.devRef .tc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem Wa_main_arg0 (c : Dev nD) : Wa m ρ c (Proc.devRef .tc main_arg0) = m ((c : Thread nD τ).loc main_arg0) :=
  calc Wa m ρ c (Proc.devRef .tc main_arg0)
    _ = Wp m ρ c (Proc.devRef .tc main_arg0) := Wa_of_ne m ρ c main_arg0 (by decide)
    _ = Wh m ρ c (Proc.devRef .tc main_arg0) := (Wp_arr m ρ c 0).trans (((Proj.dat (Vh m ρ) c).arrAt_in 0 rfl _).trans (Proj.A_eq (Vh m ρ) c 0))
    _ = Wl m ρ c (Proc.devRef .tc main_arg0) := Wh_of_ne m ρ c main_arg0 (by decide)
    _ = m ((c : Thread nD τ).loc main_arg0) := rfl
theorem Wa_main_arg1 (c : Dev nD) : Wa m ρ c (Proc.devRef .tc main_arg1) = m ((c : Thread nD τ).loc main_arg1) :=
  calc Wa m ρ c (Proc.devRef .tc main_arg1)
    _ = Wp m ρ c (Proc.devRef .tc main_arg1) := Wa_of_ne m ρ c main_arg1 (by decide)
    _ = Wh m ρ c (Proc.devRef .tc main_arg1) := Wp_of_ne m ρ c main_arg1 (by decide)
    _ = Wl m ρ c (Proc.devRef .tc main_arg1) := Wh_of_ne m ρ c main_arg1 (by decide)
    _ = m ((c : Thread nD τ).loc main_arg1) := rfl
theorem Wa_main_arg2 (c : Dev nD) : Wa m ρ c (Proc.devRef .tc main_arg2) = m ((c : Thread nD τ).loc main_arg2) :=
  calc Wa m ρ c (Proc.devRef .tc main_arg2)
    _ = Wp m ρ c (Proc.devRef .tc main_arg2) := Wa_of_ne m ρ c main_arg2 (by decide)
    _ = Wh m ρ c (Proc.devRef .tc main_arg2) := Wp_of_ne m ρ c main_arg2 (by decide)
    _ = Wl m ρ c (Proc.devRef .tc main_arg2) := Wh_of_ne m ρ c main_arg2 (by decide)
    _ = m ((c : Thread nD τ).loc main_arg2) := rfl
theorem Wa_main_arg3 (c : Dev nD) : Wa m ρ c (Proc.devRef .tc main_arg3) = m ((c : Thread nD τ).loc main_arg3) :=
  calc Wa m ρ c (Proc.devRef .tc main_arg3)
    _ = Wp m ρ c (Proc.devRef .tc main_arg3) := Wa_of_ne m ρ c main_arg3 (by decide)
    _ = Wh m ρ c (Proc.devRef .tc main_arg3) := Wp_of_ne m ρ c main_arg3 (by decide)
    _ = Wl m ρ c (Proc.devRef .tc main_arg3) := Wh_of_ne m ρ c main_arg3 (by decide)
    _ = m ((c : Thread nD τ).loc main_arg3) := rfl

/-! ## The per-point data of both pipelines and the thread state -/

/-- No pipeline has a prefetched table. -/
abbrev adm : (p : Fin 2) → (pcfgs (F := F) p).Adm := fun p => (cfgs p).toPCfg_adm
/-- Every pipeline's data, each at its region's entry contents. -/
def pdats : (p : Fin 2) → (c : Dev nD) → Dat τ (Elt F) Unit ℕ (UR sig nD τ) ℕ (Pipeline.pin (pcfgs (F := F)) adm p) c
  | ⟨0, _⟩ => fun c => Proj.dat (Vh m ρ) c
  | ⟨1, _⟩ => fun c => Attn.dat (Vp m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the random-number register at some state and the core's dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The concatenation allocates no buffer. -/
theorem hostOps0_noalloc : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `Wa`, the random-number register at some state. -/
abbrev Tₙ (c : Dev nD) : sProp 𝕄 := iprop(StableHlo.held (c : Thread nD τ) (Pipeline.ucRefs τ sig) (Wa m ρ c) ∗ ∃ r, prngReg c r)

/-! ## The regions as segments -/

set_option backward.isDefEq.respectTransparency.types false in
/-- The projection region over the thread state: entered from every unscoped buffer at `Wh`, left at `Wp`. Its arrays
    are split out of the unscoped buffers and put back at the exit contents; the random-number register goes into the
    region's invariant and comes out; nothing is owed; the kernel has no semaphore of its own. -/
def regProj : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (Vh m ρ) c).loose
  hwaits := Pipeline.hwaits_of_owed_zero _ _ _ _ L lv 0 fun _ _ => rfl
  pre c := iprop(StableHlo.held (c : Thread nD τ) (Pipeline.ucRefs τ sig) (Wh m ρ c) ∗ R c)
  post c := iprop(StableHlo.held (c : Thread nD τ) (Pipeline.ucRefs τ sig) (Wp m ρ c) ∗ R c)
  X c := iprop(∃ r, prngReg c r)
  Y c := iprop(∃ r, prngReg c r)
  Z c := Pipeline.unscopedRest (Ix := Unit) (Name := ℕ) (U := UR sig nD τ) (Lvl := ℕ) spec0 c (Vh m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vh m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vh m ρ c) (Vp m ρ c) ((pdats m ρ 0 c).arrAt · cfg0.N) (hFp m ρ c) (hrestp m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `Wp`, left at `Wa` (what the
    launch reads at the end). -/
def regAttn : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (Vp m ρ) c).loose
  hwaits := Pipeline.hwaits_of_owed_zero _ _ _ _ L lv 1 fun _ _ => rfl
  pre c := iprop(StableHlo.held (c : Thread nD τ) (Pipeline.ucRefs τ sig) (Wp m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vp m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vp m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vp m ρ c) (Va m ρ c) ((pdats m ρ 1 c).arrAt · cfg1.N) (hFa m ρ c) (hresta m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The three segments in order. -/
abbrev segs : List (Pipeline.Seg (pcfgs (F := F)) adm (pdats m ρ) () defs₀ 𝒱₀ L lv) :=
  [ .host (hseg hostOps0 hostOps0_sub hostOps0_noalloc (Wl m ρ)),
    .region (regProj m ρ),
    .region (regAttn m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final state holds every unscoped buffer at `Wa`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa m ρ c) s')
      isplitl [Hh] <;> iassumption)
    (hQ := fun s h c => h c)

/-- THE FRAME: the program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wa_main_arg0 m ρ c),
     (h c _ (mem_uc main_arg1 (by decide))).trans (Wa_main_arg1 m ρ c),
     (h c _ (mem_uc main_arg2 (by decide))).trans (Wa_main_arg2 m ρ c),
     (h c _ (mem_uc main_arg3 (by decide))).trans (Wa_main_arg3 m ρ c)⟩) (run_all m ρ)

end Cert.KernelIdeal.Run

end
-- ==== Proof.AttnSpec.lean ====
/-
  Single-head causal attention over the extended reals, stated index by index.

  From an input `x : [16, 2048, 1024]` and three weights `W : [1024, 64]` the projections are
  `(x·W)[b,t,h] = Σ_c x[b,t,c] · W[c,h]`.  For projections `q, k, v` the scores are
  `score[b,t,s] = (Σ_h q[b,t,h] · k[b,s,h]) · (1/8)`, masked to `-∞` where `s > t`; each row is shifted by its
  maximum, exponentiated, and normalised by its sum `l[b,t]`.  The result is written in two arrangements:
  `outSumThenDiv` divides the weighted sum of the value rows by `l` once, `outDivThenSum` divides every weight by `l`
  before the sum.  No program is mentioned here.
-/
import Idealize.ShloMosaic.PureOps.Ideal
import Idealize.ShloMosaic.Lib.ValueIdx

noncomputable section

namespace Cert.Attn

open Idealize.ShloMosaic Idealize.ShloMosaic.ValueIdx

/-- An array of extended reals over a literal rank-3 shape. -/
abbrev Arr3 (a b c : Nat) : Type := (⟨3, ![a, b, c]⟩ : Shape).Idx → EReal
/-- An array of extended reals over a literal rank-2 shape. -/
abbrev Arr2 (a b : Nat) : Type := (⟨2, ![a, b]⟩ : Shape).Idx → EReal

/-- A projected array by coordinates: batch, position, feature. -/
abbrev Proj : Type := Fin 16 → Fin 2048 → Fin 64 → EReal

/-- The projection `x·W` at batch `b`, position `t`, feature `h`: the sum over the 1024 input features. -/
def proj (x : Arr3 16 2048 1024) (W : Arr2 1024 64) : Proj :=
  fun b t h => ∑ c : Fin 1024, x (ix3 b t c) * W (ix2 c h)

/-- The score scale, one eighth, as the binary32 word both programs carry. -/
def scale : EReal := Ideal.ofBits .f32 0x3E000000#32

section
variable (q k v : Proj)

/-- The scaled inner product of query row `t` and key row `s`. -/
def score (b : Fin 16) (t s : Fin 2048) : EReal := (∑ h : Fin 64, q b t h * k b s h) * scale

/-- The causal mask: key positions after the query position are `-∞`. -/
def masked (b : Fin 16) (t s : Fin 2048) : EReal := if s.val ≤ t.val then score q k b t s else ⊥

/-- The maximum of a masked row, as a fold of `max` from `-∞` over the key positions. -/
def rowMax (b : Fin 16) (t : Fin 2048) : EReal :=
  (Finset.univ : Finset (Fin 2048)).fold max ⊥ (masked q k b t)

/-- The unnormalised weight `exp (masked − rowMax)`. -/
def weight (b : Fin 16) (t s : Fin 2048) : EReal := Ideal.exp (masked q k b t s - rowMax q k b t)

/-- The normaliser of a row: the sum of its unnormalised weights. -/
def denom (b : Fin 16) (t : Fin 2048) : EReal := ∑ s : Fin 2048, weight q k b t s

/-- The output with ONE division, after the weighted sum of the value rows. -/
def outSumThenDiv (b : Fin 16) (t : Fin 2048) (h : Fin 64) : EReal :=
  Ideal.div (∑ s : Fin 2048, weight q k b t s * v b s h) (denom q k b t)

/-- The output with every weight divided by the normaliser BEFORE the sum. -/
def outDivThenSum (b : Fin 16) (t : Fin 2048) (h : Fin 64) : EReal :=
  ∑ s : Fin 2048, Ideal.div (weight q k b t s) (denom q k b t) * v b s h

end

/-- Attention of `x` under the three weights, one division after the sum, as an array over [16, 2048, 64]. -/
def attnSumThenDiv (x : Arr3 16 2048 1024) (Wq Wk Wv : Arr2 1024 64) : Arr3 16 2048 64 :=
  fun i => outSumThenDiv (proj x Wq) (proj x Wk) (proj x Wv) (i 0) (i 1) (i 2)

/-- Attention of `x` under the three weights, every weight normalised before the sum. -/
def attnDivThenSum (x : Arr3 16 2048 1024) (Wq Wk Wv : Arr2 1024 64) : Arr3 16 2048 64 :=
  fun i => outDivThenSum (proj x Wq) (proj x Wk) (proj x Wv) (i 0) (i 1) (i 2)

end Cert.Attn

end
-- ==== Proof.KIPayloads.lean ====
/-
  The projection body's stored values, read at an index over the extended reals.

  The projection body forms ONE product of the row block `x : [1, 1024, 1024]` (as a matrix) with the fused weight
  `[1024, 192]` into a zero accumulator and stores its three column groups `[0, 64)`, `[64, 128)`, `[128, 192)`; over the
  extended reals a change of format is the identity, so each stored entry is the plain sum
  `Σ_c x[0, r, c] · W[c, o + h]`.
-/
import proofs.«126121_j90881507983860_2_alg».proof.Proof.Gen.KernelIdeal.Skeleton
import proofs.«126121_j90881507983860_2_alg».proof.Proof.AttnSpec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Pay

open Cert.KernelIdeal Cert.KernelIdeal.Gen Idealize.ShloMosaic Idealize.ShloMosaic.ValueIdx

/-! ### The projection body: one product of the row block with the fused weight, cut into three column groups -/

/-- The product's left operand index keeps the output row. -/
theorem mmProj_lhs_row (j : S1024x192.Idx) (q : dot_S1024x1024_S1024x192_S1024x192_1_0_0_1_n_n.contr.Idx) :
    (dot_S1024x1024_S1024x192_S1024x192_1_0_0_1_n_n.lhsIdx j q 0).val = (j 0).val := by
  unfold DotDims.lhsIdx
  rw [dif_neg (show ¬(0 : Fin S1024x1024.rank) ∈ dot_S1024x1024_S1024x192_S1024x192_1_0_0_1_n_n.lhsBatch by decide),
    dif_pos (show (0 : Fin S1024x1024.rank) ∈ dot_S1024x1024_S1024x192_S1024x192_1_0_0_1_n_n.lhsNonContracting by decide)]
  rfl

/-- The product's right operand index keeps the output column. -/
theorem mmProj_rhs_col (j : S1024x192.Idx) (q : dot_S1024x1024_S1024x192_S1024x192_1_0_0_1_n_n.contr.Idx) :
    (dot_S1024x1024_S1024x192_S1024x192_1_0_0_1_n_n.rhsIdx j q 1).val = (j 1).val := by
  unfold DotDims.rhsIdx
  rw [dif_neg (show ¬(1 : Fin S1024x192.rank) ∈ dot_S1024x1024_S1024x192_S1024x192_1_0_0_1_n_n.rhsBatch by decide),
    dif_pos (show (1 : Fin S1024x192.rank) ∈ dot_S1024x1024_S1024x192_S1024x192_1_0_0_1_n_n.rhsNonContracting by decide)]
  rfl

/-- The product of a [1024, 1024] block with a [1024, 192] weight into the zero accumulator, read at row `r`, column `c`:
    the sum over the 1024 contracted coordinates. -/
theorem mmProj_apply (A : FVec Ideal S1024x1024 .bf16) (B : FVec Ideal S1024x192 .bf16) (r : Fin 1024) (c : Fin 192) :
    matmul dot_S1024x1024_S1024x192_S1024x192_1_0_0_1_n_n none A B (constant (F := Ideal) S1024x192 .f32 0x00000000#32) (ix2 r c)
      = ∑ k : Fin 1024, A (ix2 r k) * B (ix2 k c) := by
  refine (Ideal.matmul_constant_zero_apply dot_S1024x1024_S1024x192_S1024x192_1_0_0_1_n_n none A B (ix2 r c)).trans ?_
  rw [← Equiv.sum_comp (contrEquiv1 dot_S1024x1024_S1024x192_S1024x192_1_0_0_1_n_n 1024 rfl rfl).symm]
  refine Finset.sum_congr rfl fun k _ => ?_
  have hk := contrEquiv1_symm_val dot_S1024x1024_S1024x192_S1024x192_1_0_0_1_n_n 1024 rfl rfl k
  have el : dot_S1024x1024_S1024x192_S1024x192_1_0_0_1_n_n.lhsIdx (ix2 r c)
      ((contrEquiv1 dot_S1024x1024_S1024x192_S1024x192_1_0_0_1_n_n 1024 rfl rfl).symm k) = ix2 r k :=
    funext fun a => Fin.ext (by
      match a with
      | ⟨0, _⟩ => exact mmProj_lhs_row _ _
      | ⟨1, _⟩ => exact (dot_S1024x1024_S1024x192_S1024x192_1_0_0_1_n_n.lhsIdx_val_of_single rfl _ _).trans hk)
  have er : dot_S1024x1024_S1024x192_S1024x192_1_0_0_1_n_n.rhsIdx (ix2 r c)
      ((contrEquiv1 dot_S1024x1024_S1024x192_S1024x192_1_0_0_1_n_n 1024 rfl rfl).symm k) = ix2 k c :=
    funext fun a => Fin.ext (by
      match a with
      | ⟨0, _⟩ => exact (dot_S1024x1024_S1024x192_S1024x192_1_0_0_1_n_n.rhsIdx_val_of_single rfl _ _).trans hk
      | ⟨1, _⟩ => exact mmProj_rhs_col _ _)
  rw [el, er]

/-- The fused projection at row `r`, column `c`: the row of the `x` block against the column of the weight. -/
theorem pay1_apply (x0 : Vec Ideal S1x1024x1024 .f32) (x1 : Vec Ideal S1024x192 .f32) (r : Fin 1024) (c : Fin 192) :
    k0_pay1 (F := Ideal) x0 x1 (ix2 r c) = ∑ k : Fin 1024, x0 (ix3 (0 : Fin 1) r k) * x1 (ix2 k c) := by
  unfold k0_pay1
  refine (mmProj_apply _ _ r c).trans ?_
  refine Finset.sum_congr rfl fun k _ => ?_
  refine congrArg₂ (· * ·) ?_ ?_
  · exact shapeCast_1ab_ab_apply (a := 1024) (b := 1024) x0 _ r k
  · exact congrFun (shapeCast_self x1 _) (ix2 k c)

/-- The first column group `[0, 64)`: the query projection of the row block. -/
theorem payQ_apply (x0 : Vec Ideal S1x1024x1024 .f32) (x1 : Vec Ideal S1024x192 .f32) (r : Fin 1024) (h : Fin 64) :
    k0_pay2 (F := Ideal) x0 x1 (ix3 (0 : Fin 1) r h)
      = ∑ c : Fin 1024, x0 (ix3 (0 : Fin 1) r c) * x1 (ix2 c (⟨h.val, by omega⟩ : Fin 192)) := by
  unfold k0_pay2
  refine (shapeCast_ab_1ab_apply (a := 1024) (b := 64) _ _ (0 : Fin 1) r h).trans ?_
  refine (slice2_axis1_apply (n0 := 1024) (n1 := 192) (m := 64) 0 _ _ r h (⟨h.val, by omega⟩ : Fin 192) (Nat.zero_add _).symm).trans ?_
  exact pay1_apply x0 x1 r _

/-- The second column group `[64, 128)`: the key projection. -/
theorem payK_apply (x0 : Vec Ideal S1x1024x1024 .f32) (x1 : Vec Ideal S1024x192 .f32) (r : Fin 1024) (h : Fin 64) :
    k0_pay3 (F := Ideal) x0 x1 (ix3 (0 : Fin 1) r h)
      = ∑ c : Fin 1024, x0 (ix3 (0 : Fin 1) r c) * x1 (ix2 c (⟨64 + h.val, by omega⟩ : Fin 192)) := by
  unfold k0_pay3
  refine (shapeCast_ab_1ab_apply (a := 1024) (b := 64) _ _ (0 : Fin 1) r h).trans ?_
  refine (slice2_axis1_apply (n0 := 1024) (n1 := 192) (m := 64) 64 _ _ r h (⟨64 + h.val, by omega⟩ : Fin 192) rfl).trans ?_
  exact pay1_apply x0 x1 r _

/-- The third column group `[128, 192)`: the value projection. -/
theorem payV_apply (x0 : Vec Ideal S1x1024x1024 .f32) (x1 : Vec Ideal S1024x192 .f32) (r : Fin 1024) (h : Fin 64) :
    k0_pay4 (F := Ideal) x0 x1 (ix3 (0 : Fin 1) r h)
      = ∑ c : Fin 1024, x0 (ix3 (0 : Fin 1) r c) * x1 (ix2 c (⟨128 + h.val, by omega⟩ : Fin 192)) := by
  unfold k0_pay4
  refine (shapeCast_ab_1ab_apply (a := 1024) (b := 64) _ _ (0 : Fin 1) r h).trans ?_
  refine (slice2_axis1_apply (n0 := 1024) (n1 := 192) (m := 64) 128 _ _ r h (⟨128 + h.val, by omega⟩ : Fin 192) rfl).trans ?_
  exact pay1_apply x0 x1 r _

end Cert.KernelIdeal.Pay

end
-- ==== Proof.KIProjValue.lean ====
/-
  What the projection region leaves, at the ideal instance: each of its three output arrays is `x` times one of the
  weights, index by index.

  The region's weight operand is the three weights side by side, `[Wq | Wk | Wv] : [1024, 192]`, written by the host
  stretch before the region; columns 0–63, 64–127, 128–191 of it are the three weights.  At grid point `(b, j)` the body's
  stored block is the product of the `x` block `[b, 1024 j : 1024 (j+1), :]` with that operand, one 64-column slice per
  output.  The 32 blocks of each output tile its array, so after the region each output array is the whole projection
  `(x·W)[b, p, h] = Σ_c x[b, p, c] · W[c, h]`.
-/
import proofs.«126121_j90881507983860_2_alg».proof.Proof.KIRun
import proofs.«126121_j90881507983860_2_alg».proof.Proof.KIPayloads
import proofs.«126121_j90881507983860_2_alg».proof.Proof.AttnSpec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.ProjValue

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The concatenated weight as the region finds it: the host stretch's one operation applied to the three weights. -/
theorem wcat_eq (c : Dev nD) : (Vh m ρ c main_v0 : S1024x192.Idx → EReal) =
    concatenate S1024x192 1 [⟨S1024x64, m ((c : Thread nD τ).loc main_arg1)⟩, ⟨S1024x64, m ((c : Thread nD τ).loc main_arg2)⟩, ⟨S1024x64, m ((c : Thread nD τ).loc main_arg3)⟩] concatenates_S1024x64_S1024x64_S1024x64_S1024x192_d1 := by
  dsimp only [Vh, Wh, hostOps0]
  after_results
  rfl

/-- The input `x` as the region finds it: the host stretch does not write it. -/
theorem x_eq (c : Dev nD) : (Vh m ρ c main_arg0 : S16x2048x1024.Idx → EReal) = m ((c : Thread nD τ).loc main_arg0) :=
  (Wh_of_ne m ρ c main_arg0 (by decide)).trans rfl

/-! ## The Q array: output window 2 -/

/-- The concatenated weight's columns 0–63 are the first weight. -/
theorem wcat_Q (c : Dev nD) (k : Fin 1024) (h : Fin 64) :
    (Vh m ρ c main_v0 : S1024x192.Idx → EReal) (ix2 k (⟨h.val, by omega⟩ : Fin 192)) = m ((c : Thread nD τ).loc main_arg1) (ix2 k h) := by
  rw [wcat_eq]
  exact concatenate_apply_piece (t := S1024x192) (1 : Fin 2)
    [⟨S1024x64, m ((c : Thread nD τ).loc main_arg1)⟩, ⟨S1024x64, m ((c : Thread nD τ).loc main_arg2)⟩, ⟨S1024x64, m ((c : Thread nD τ).loc main_arg3)⟩]
    concatenates_S1024x64_S1024x64_S1024x64_S1024x192_d1 (ix2 k (⟨h.val, by omega⟩ : Fin 192)) 0 (show 0 < 3 by decide) S1024x64 _ rfl rfl 0 rfl (ix2 k h)
    (fun b hb => by match b with | ⟨0, _⟩ => rfl | ⟨1, _⟩ => exact absurd rfl hb) (by simp)

/-- The projected array: `x` times the first weight, index by index. -/
def arrQ (c : Dev nD) : S16x2048x64.Idx → EReal :=
  fun i => Cert.Attn.proj (m ((c : Thread nD τ).loc main_arg0)) (m ((c : Thread nD τ).loc main_arg1)) (i 0) (i 1) (i 2)

/-- The printed index maps of the windows this output reads and writes, decided over the grid. -/
theorem idx_facts_Q : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_2.index t (2 : Fin 3) = 0
    ∧ win0_1.index t (0 : Fin 2) = 0 ∧ win0_1.index t (1 : Fin 2) = 0 :=
  (by decide +kernel : ∀ t : Fin grid0.N, _)

/-- Every block of the array is some grid point's. -/
theorem idx_onto_Q : ∀ (q0 : Fin 16) (q1 : Fin 2), ∃ t : Fin cfg0.N, win0_2.index t = ![q0.val, q1.val, 0] :=
  (by decide +kernel : ∀ (q0 : Fin 16) (q1 : Fin 2), ∃ t : Fin grid0.N, win0_2.index t = ![q0.val, q1.val, 0])

/-- What grid point `t` writes back is block `t` of the projected array: row `r` of the block against column `h` of
    the weight's first 64 columns, the block's row being row `1024·(tile) + r` of batch `b` of `x`. -/
theorem flushedQ_eq (c : Dev nD) (t : Fin cfg0.N) :
    (Proj.dat (Vh m ρ) c).flushed 2 t = ((cfg0.win 2).blk t).view.read (Elt Ideal) (arrQ m c) := by
  show (cfg0.win 2).cut (grid0.coords t) ((Proj.dat (Vh m ρ) c).after 2 t) = _
  rw [Proj.after_q]
  unfold Proj.outQ
  rw [View.canon_unit_zero hz3]
  simp only [View.ld_unit_zero (S := S1x1024x1024) hz3, View.ld_unit_zero (S := S1024x192) hz2]
  obtain ⟨e0, e1, e2, e3, e4, e5⟩ := idx_facts_Q t
  funext j
  revert j
  show ∀ j : S1x1024x64.Idx, k0_pay2 (F := Ideal) (Proj.iblk (Vh m ρ) c 0 t) (Proj.iblk (Vh m ρ) c 1 t) j = arrQ m c (((cfg0.win 2).blk t).view.emb j)
  intro j
  obtain ⟨r, h, rfl⟩ : ∃ (r : Fin 1024) (h : Fin 64), j = ix3 (0 : Fin 1) r h :=
    ⟨j 1, j 2, funext fun a => by
      match a with
      | ⟨0, _⟩ => exact Fin.ext (Nat.lt_one_iff.mp (j 0).isLt)
      | ⟨1, _⟩ => rfl
      | ⟨2, _⟩ => rfl⟩
  refine (Pay.payQ_apply _ _ r h).trans ?_
  unfold arrQ Cert.Attn.proj
  refine Finset.sum_congr rfl fun k _ => ?_
  refine congrArg₂ (· * ·) ?_ ?_
  · show (Vh m ρ c main_arg0 : S16x2048x1024.Idx → EReal) (((cfg0.win 0).blk t).view.emb (ix3 (0 : Fin 1) r k)) = _
    rw [x_eq]
    refine congrArg _ (funext fun a => Fin.ext ?_)
    match a with
    | ⟨0, _⟩ => show win0_0.index t (0 : Fin 3) * 1 + 1 * 0 = win0_2.index t (0 : Fin 3) * 1 + 1 * 0; omega
    | ⟨1, _⟩ => show win0_0.index t (1 : Fin 3) * 1024 + 1 * r.val = win0_2.index t (1 : Fin 3) * 1024 + 1 * r.val; omega
    | ⟨2, _⟩ => show win0_0.index t (2 : Fin 3) * 1024 + 1 * k.val = k.val; omega
  · show (Vh m ρ c main_v0 : S1024x192.Idx → EReal) (((cfg0.win 1).blk t).view.emb (ix2 k (⟨h.val, by omega⟩ : Fin 192))) = _
    have hi : ((cfg0.win 1).blk t).view.emb (ix2 k (⟨h.val, by omega⟩ : Fin 192)) = ix2 k (⟨h.val, by omega⟩ : Fin 192) := by
      funext a; apply Fin.ext
      match a with
      | ⟨0, _⟩ => show win0_1.index t (0 : Fin 2) * 1024 + 1 * k.val = k.val; omega
      | ⟨1, _⟩ => show win0_1.index t (1 : Fin 2) * 192 + 1 * (h.val) = h.val; omega
    rw [hi, wcat_Q]
    refine congrArg _ (funext fun a => Fin.ext ?_)
    match a with
    | ⟨0, _⟩ => rfl
    | ⟨1, _⟩ => show h.val = win0_2.index t (2 : Fin 3) * 64 + 1 * h.val; omega

/-- An index of the array is in point `t`'s block iff each coordinate is in the block's range on its axis. -/
theorem mem_blk_Q (t : Fin cfg0.N) (i : S16x2048x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v1_0).slice (win0_2.rect t)).set ↔ _
  rw [View.set_slice_whole, Rect.mem_set_unit]
  exact Iff.rfl

/-- The blocks tile the array: index `(b, p, h)` lies in the block of the point with batch `b` and tile `p / 1024`. -/
theorem cover_Q (i : S16x2048x64.Idx) : ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 64 := (i 2).isLt
  obtain ⟨t, ht⟩ := idx_onto_Q ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk_Q]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- The array after the projection region is the projected array. -/
theorem final_Q (c : Dev nD) : (Proj.dat (Vh m ρ) c).arrAt 2 cfg0.N = arrQ m c :=
  (Proj.dat (Vh m ρ) c).arrAt_eq_of_cover 2 (arrQ m c) (fun t _ => flushedQ_eq m ρ c t) (cover_Q)

/-- So the attention region finds it there. -/
theorem entry_Q (c : Dev nD) : (Vp m ρ c main_v1_0 : S16x2048x64.Idx → EReal) = arrQ m c :=
  (Wp_arr m ρ c 2).trans (final_Q m ρ c)

/-! ## The K array: output window 3 -/

/-- The concatenated weight's columns 64–127 are the second weight. -/
theorem wcat_K (c : Dev nD) (k : Fin 1024) (h : Fin 64) :
    (Vh m ρ c main_v0 : S1024x192.Idx → EReal) (ix2 k (⟨64 + h.val, by omega⟩ : Fin 192)) = m ((c : Thread nD τ).loc main_arg2) (ix2 k h) := by
  rw [wcat_eq]
  exact concatenate_apply_piece (t := S1024x192) (1 : Fin 2)
    [⟨S1024x64, m ((c : Thread nD τ).loc main_arg1)⟩, ⟨S1024x64, m ((c : Thread nD τ).loc main_arg2)⟩, ⟨S1024x64, m ((c : Thread nD τ).loc main_arg3)⟩]
    concatenates_S1024x64_S1024x64_S1024x64_S1024x192_d1 (ix2 k (⟨64 + h.val, by omega⟩ : Fin 192)) 1 (show 1 < 3 by decide) S1024x64 _ rfl rfl 64 rfl (ix2 k h)
    (fun b hb => by match b with | ⟨0, _⟩ => rfl | ⟨1, _⟩ => exact absurd rfl hb) (by simp)

/-- The projected array: `x` times the second weight, index by index. -/
def arrK (c : Dev nD) : S16x2048x64.Idx → EReal :=
  fun i => Cert.Attn.proj (m ((c : Thread nD τ).loc main_arg0)) (m ((c : Thread nD τ).loc main_arg2)) (i 0) (i 1) (i 2)

/-- The printed index maps of the windows this output reads and writes, decided over the grid. -/
theorem idx_facts_K : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0 :=
  (by decide +kernel : ∀ t : Fin grid0.N, _)

/-- Every block of the array is some grid point's. -/
theorem idx_onto_K : ∀ (q0 : Fin 16) (q1 : Fin 2), ∃ t : Fin cfg0.N, win0_3.index t = ![q0.val, q1.val, 0] :=
  (by decide +kernel : ∀ (q0 : Fin 16) (q1 : Fin 2), ∃ t : Fin grid0.N, win0_3.index t = ![q0.val, q1.val, 0])

/-- What grid point `t` writes back is block `t` of the projected array: row `r` of the block against column `h` of
    the weight's second 64 columns, the block's row being row `1024·(tile) + r` of batch `b` of `x`. -/
theorem flushedK_eq (c : Dev nD) (t : Fin cfg0.N) :
    (Proj.dat (Vh m ρ) c).flushed 3 t = ((cfg0.win 3).blk t).view.read (Elt Ideal) (arrK m c) := by
  show (cfg0.win 3).cut (grid0.coords t) ((Proj.dat (Vh m ρ) c).after 3 t) = _
  rw [Proj.after_k]
  unfold Proj.outK
  rw [View.canon_unit_zero hz3]
  simp only [View.ld_unit_zero (S := S1x1024x1024) hz3, View.ld_unit_zero (S := S1024x192) hz2]
  obtain ⟨e0, e1, e2, e3, e4, e5⟩ := idx_facts_K t
  funext j
  revert j
  show ∀ j : S1x1024x64.Idx, k0_pay3 (F := Ideal) (Proj.iblk (Vh m ρ) c 0 t) (Proj.iblk (Vh m ρ) c 1 t) j = arrK m c (((cfg0.win 3).blk t).view.emb j)
  intro j
  obtain ⟨r, h, rfl⟩ : ∃ (r : Fin 1024) (h : Fin 64), j = ix3 (0 : Fin 1) r h :=
    ⟨j 1, j 2, funext fun a => by
      match a with
      | ⟨0, _⟩ => exact Fin.ext (Nat.lt_one_iff.mp (j 0).isLt)
      | ⟨1, _⟩ => rfl
      | ⟨2, _⟩ => rfl⟩
  refine (Pay.payK_apply _ _ r h).trans ?_
  unfold arrK Cert.Attn.proj
  refine Finset.sum_congr rfl fun k _ => ?_
  refine congrArg₂ (· * ·) ?_ ?_
  · show (Vh m ρ c main_arg0 : S16x2048x1024.Idx → EReal) (((cfg0.win 0).blk t).view.emb (ix3 (0 : Fin 1) r k)) = _
    rw [x_eq]
    refine congrArg _ (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 1024 + 1 * r.val = win0_3.index t (1 : Fin 3) * 1024 + 1 * r.val; omega
    | ⟨2, _⟩ => show win0_0.index t (2 : Fin 3) * 1024 + 1 * k.val = k.val; omega
  · show (Vh m ρ c main_v0 : S1024x192.Idx → EReal) (((cfg0.win 1).blk t).view.emb (ix2 k (⟨64 + h.val, by omega⟩ : Fin 192))) = _
    have hi : ((cfg0.win 1).blk t).view.emb (ix2 k (⟨64 + h.val, by omega⟩ : Fin 192)) = ix2 k (⟨64 + h.val, by omega⟩ : Fin 192) := by
      funext a; apply Fin.ext
      match a with
      | ⟨0, _⟩ => show win0_1.index t (0 : Fin 2) * 1024 + 1 * k.val = k.val; omega
      | ⟨1, _⟩ => show win0_1.index t (1 : Fin 2) * 192 + 1 * (64 + h.val) = 64 + h.val; omega
    rw [hi, wcat_K]
    refine congrArg _ (funext fun a => Fin.ext ?_)
    match a with
    | ⟨0, _⟩ => rfl
    | ⟨1, _⟩ => show h.val = win0_3.index t (2 : Fin 3) * 64 + 1 * h.val; omega

/-- An index of the array is in point `t`'s block iff each coordinate is in the block's range on its axis. -/
theorem mem_blk_K (t : Fin cfg0.N) (i : S16x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v1_1).slice (win0_3.rect t)).set ↔ _
  rw [View.set_slice_whole, Rect.mem_set_unit]
  exact Iff.rfl

/-- The blocks tile the array: index `(b, p, h)` lies in the block of the point with batch `b` and tile `p / 1024`. -/
theorem cover_K (i : S16x2048x64.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto_K ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk_K]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The array after the projection region is the projected array. -/
theorem final_K (c : Dev nD) : (Proj.dat (Vh m ρ) c).arrAt 3 cfg0.N = arrK m c :=
  (Proj.dat (Vh m ρ) c).arrAt_eq_of_cover 3 (arrK m c) (fun t _ => flushedK_eq m ρ c t) (cover_K)

/-- So the attention region finds it there. -/
theorem entry_K (c : Dev nD) : (Vp m ρ c main_v1_1 : S16x2048x64.Idx → EReal) = arrK m c :=
  (Wp_arr m ρ c 3).trans (final_K m ρ c)

/-! ## The V array: output window 4 -/

/-- The concatenated weight's columns 128–191 are the third weight. -/
theorem wcat_V (c : Dev nD) (k : Fin 1024) (h : Fin 64) :
    (Vh m ρ c main_v0 : S1024x192.Idx → EReal) (ix2 k (⟨128 + h.val, by omega⟩ : Fin 192)) = m ((c : Thread nD τ).loc main_arg3) (ix2 k h) := by
  rw [wcat_eq]
  exact concatenate_apply_piece (t := S1024x192) (1 : Fin 2)
    [⟨S1024x64, m ((c : Thread nD τ).loc main_arg1)⟩, ⟨S1024x64, m ((c : Thread nD τ).loc main_arg2)⟩, ⟨S1024x64, m ((c : Thread nD τ).loc main_arg3)⟩]
    concatenates_S1024x64_S1024x64_S1024x64_S1024x192_d1 (ix2 k (⟨128 + h.val, by omega⟩ : Fin 192)) 2 (show 2 < 3 by decide) S1024x64 _ rfl rfl 128 rfl (ix2 k h)
    (fun b hb => by match b with | ⟨0, _⟩ => rfl | ⟨1, _⟩ => exact absurd rfl hb) (by simp)

/-- The projected array: `x` times the third weight, index by index. -/
def arrV (c : Dev nD) : S16x2048x64.Idx → EReal :=
  fun i => Cert.Attn.proj (m ((c : Thread nD τ).loc main_arg0)) (m ((c : Thread nD τ).loc main_arg3)) (i 0) (i 1) (i 2)

/-- The printed index maps of the windows this output reads and writes, decided over the grid. -/
theorem idx_facts_V : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0 :=
  (by decide +kernel : ∀ t : Fin grid0.N, _)

/-- Every block of the array is some grid point's. -/
theorem idx_onto_V : ∀ (q0 : Fin 16) (q1 : Fin 2), ∃ t : Fin cfg0.N, win0_4.index t = ![q0.val, q1.val, 0] :=
  (by decide +kernel : ∀ (q0 : Fin 16) (q1 : Fin 2), ∃ t : Fin grid0.N, win0_4.index t = ![q0.val, q1.val, 0])

/-- What grid point `t` writes back is block `t` of the projected array: row `r` of the block against column `h` of
    the weight's third 64 columns, the block's row being row `1024·(tile) + r` of batch `b` of `x`. -/
theorem flushedV_eq (c : Dev nD) (t : Fin cfg0.N) :
    (Proj.dat (Vh m ρ) c).flushed 4 t = ((cfg0.win 4).blk t).view.read (Elt Ideal) (arrV m c) := by
  show (cfg0.win 4).cut (grid0.coords t) ((Proj.dat (Vh m ρ) c).after 4 t) = _
  rw [Proj.after_v]
  unfold Proj.outV
  rw [View.canon_unit_zero hz3]
  simp only [View.ld_unit_zero (S := S1x1024x1024) hz3, View.ld_unit_zero (S := S1024x192) hz2]
  obtain ⟨e0, e1, e2, e3, e4, e5⟩ := idx_facts_V t
  funext j
  revert j
  show ∀ j : S1x1024x64.Idx, k0_pay4 (F := Ideal) (Proj.iblk (Vh m ρ) c 0 t) (Proj.iblk (Vh m ρ) c 1 t) j = arrV m c (((cfg0.win 4).blk t).view.emb j)
  intro j
  obtain ⟨r, h, rfl⟩ : ∃ (r : Fin 1024) (h : Fin 64), j = ix3 (0 : Fin 1) r h :=
    ⟨j 1, j 2, funext fun a => by
      match a with
      | ⟨0, _⟩ => exact Fin.ext (Nat.lt_one_iff.mp (j 0).isLt)
      | ⟨1, _⟩ => rfl
      | ⟨2, _⟩ => rfl⟩
  refine (Pay.payV_apply _ _ r h).trans ?_
  unfold arrV Cert.Attn.proj
  refine Finset.sum_congr rfl fun k _ => ?_
  refine congrArg₂ (· * ·) ?_ ?_
  · show (Vh m ρ c main_arg0 : S16x2048x1024.Idx → EReal) (((cfg0.win 0).blk t).view.emb (ix3 (0 : Fin 1) r k)) = _
    rw [x_eq]
    refine congrArg _ (funext fun a => Fin.ext ?_)
    match a with
    | ⟨0, _⟩ => show win0_0.index t (0 : Fin 3) * 1 + 1 * 0 = win0_4.index t (0 : Fin 3) * 1 + 1 * 0; omega
    | ⟨1, _⟩ => show win0_0.index t (1 : Fin 3) * 1024 + 1 * r.val = win0_4.index t (1 : Fin 3) * 1024 + 1 * r.val; omega
    | ⟨2, _⟩ => show win0_0.index t (2 : Fin 3) * 1024 + 1 * k.val = k.val; omega
  · show (Vh m ρ c main_v0 : S1024x192.Idx → EReal) (((cfg0.win 1).blk t).view.emb (ix2 k (⟨128 + h.val, by omega⟩ : Fin 192))) = _
    have hi : ((cfg0.win 1).blk t).view.emb (ix2 k (⟨128 + h.val, by omega⟩ : Fin 192)) = ix2 k (⟨128 + h.val, by omega⟩ : Fin 192) := by
      funext a; apply Fin.ext
      match a with
      | ⟨0, _⟩ => show win0_1.index t (0 : Fin 2) * 1024 + 1 * k.val = k.val; omega
      | ⟨1, _⟩ => show win0_1.index t (1 : Fin 2) * 192 + 1 * (128 + h.val) = 128 + h.val; omega
    rw [hi, wcat_V]
    refine congrArg _ (funext fun a => Fin.ext ?_)
    match a with
    | ⟨0, _⟩ => rfl
    | ⟨1, _⟩ => show h.val = win0_4.index t (2 : Fin 3) * 64 + 1 * h.val; omega

/-- An index of the array is in point `t`'s block iff each coordinate is in the block's range on its axis. -/
theorem mem_blk_V (t : Fin cfg0.N) (i : S16x2048x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v1_2).slice (win0_4.rect t)).set ↔ _
  rw [View.set_slice_whole, Rect.mem_set_unit]
  exact Iff.rfl

/-- The blocks tile the array: index `(b, p, h)` lies in the block of the point with batch `b` and tile `p / 1024`. -/
theorem cover_V (i : S16x2048x64.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  obtain ⟨t, ht⟩ := idx_onto_V ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk_V]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- The array after the projection region is the projected array. -/
theorem final_V (c : Dev nD) : (Proj.dat (Vh m ρ) c).arrAt 4 cfg0.N = arrV m c :=
  (Proj.dat (Vh m ρ) c).arrAt_eq_of_cover 4 (arrV m c) (fun t _ => flushedV_eq m ρ c t) (cover_V)

/-- So the attention region finds it there. -/
theorem entry_V (c : Dev nD) : (Vp m ρ c main_v1_2 : S16x2048x64.Idx → EReal) = arrV m c :=
  (Wp_arr m ρ c 4).trans (final_V m ρ c)

end Cert.KernelIdeal.ProjValue

end
-- ==== Proof.KIAttnPayload.lean ====
/-
  The attention body's stored value, read at an index over the extended reals.

  On a block of 1024 query rows (block number `j` of a batch) against all 2048 key and value rows the body forms the
  products of the query rows with the key rows over the 64 features, times one eighth; replaces the entries whose key
  position `s` exceeds the query position `1024 · j + r` by `-∞`; takes each row's maximum as a fold of `max` from `-∞`;
  exponentiates the row less its maximum; sums each row; forms the sum over the key positions of the exponentials times
  the value rows; and divides that sum once by the row's sum. A change of format is the identity over the extended
  reals, and the layout operations (a leading unit axis dropped or added, a vector of row values cast to a column and
  broadcast along the rows) read one element of their operand. Index by index the stored value is the specification's
  output with one division after the weighted sum, at query position `1024 · j + r`.
-/
import proofs.«126121_j90881507983860_2_alg».proof.Proof.Gen.KernelIdeal.Skeleton
import proofs.«126121_j90881507983860_2_alg».proof.Proof.AttnSpec
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws
import Idealize.ShloMosaic.PureOps.IdealRules

noncomputable section

namespace Cert.KernelIdeal.AttnPay

open Cert.KernelIdeal Cert.KernelIdeal.Gen Idealize.ShloMosaic Idealize.ShloMosaic.ValueIdx

/-- The binary32 word `0xFF800000` denotes `-∞`. -/
theorem negInf : Ideal.ofBits .f32 0xFF800000#32 = (⊥ : EReal) := by simp [Ideal.ofBits, Ideal.ieee]

/-- The named fill constant denotes `-∞`, by the certificate's table. -/
theorem negBig : Named.named (F := Ideal) Cert.KernelIdeal.κ "neg_big" (φ := .f32) 0xFF333332#32 = (⊥ : EReal) :=
  IdealRules.named_const.ideal_named_scalar _ _ _ _ rfl

/-! ### Columns: a vector of row values cast to a column and broadcast along the rows -/

section Column
variable {α : Type}

/-- A `[1024]` array cast to `[1024, 1]` reads, at `(r, u)`, the operand at `r`. -/
theorem shapeCast_col_apply (x : (⟨1, ![1024]⟩ : Shape).Idx → α) (h : (⟨1, ![1024]⟩ : Shape).ShapeCasts ⟨2, ![1024, 1]⟩)
    (r : Fin 1024) (u : Fin 1) : shapeCast ⟨2, ![1024, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A `[1024, 1]` column broadcast to `[1024, n]` reads, at `(r, c)`, the column at `r`. -/
theorem broadcastTo_col_apply {n : ℕ} (x : (⟨2, ![1024, 1]⟩ : Shape).Idx → α)
    (h : (⟨2, ![1024, 1]⟩ : Shape).Broadcasts ⟨2, ![1024, n]⟩) (r : Fin 1024) (c : Fin n) :
    broadcastTo ⟨2, ![1024, n]⟩ x h (ix2 r c) = x (ix2 r (0 : Fin 1)) := by
  refine broadcastTo_apply x h (ix2 r c) (ix2 r (0 : Fin 1)) fun ax => ?_
  match ax with
  | ⟨0, _⟩ =>
    show r.val = if (1024 : ℕ) = 1 then 0 else r.val
    rw [if_neg (by decide)]
  | ⟨1, _⟩ => rfl

end Column

/-! ### The two products -/

/-- The score product's left operand index keeps the output row. -/
theorem mmQK_lhs_row (j : S1024x2048.Idx) (q : dot_S1024x64_S2048x64_S1024x2048_1_1_0_0_n_n.contr.Idx) :
    (dot_S1024x64_S2048x64_S1024x2048_1_1_0_0_n_n.lhsIdx j q 0).val = (j 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl

/-- The score product's right operand index has the output column as its ROW: the key position. -/
theorem mmQK_rhs_row (j : S1024x2048.Idx) (q : dot_S1024x64_S2048x64_S1024x2048_1_1_0_0_n_n.contr.Idx) :
    (dot_S1024x64_S2048x64_S1024x2048_1_1_0_0_n_n.rhsIdx j q 0).val = (j 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl

/-- The product of a [1024, 64] block of query rows with the transpose of a [2048, 64] block of key rows into the zero
    accumulator, at query row `r` and key row `s`: the sum over the 64 features. -/
theorem mmQK_apply (A : FVec Ideal S1024x64 .bf16) (B : FVec Ideal S2048x64 .bf16) (r : Fin 1024) (s : Fin 2048) :
    matmul dot_S1024x64_S2048x64_S1024x2048_1_1_0_0_n_n none A B (constant (F := Ideal) S1024x2048 .f32 0x00000000#32) (ix2 r s)
      = ∑ h : Fin 64, A (ix2 r h) * B (ix2 s h) := by
  refine (Ideal.matmul_constant_zero_apply dot_S1024x64_S2048x64_S1024x2048_1_1_0_0_n_n none A B (ix2 r s)).trans ?_
  rw [← Equiv.sum_comp (contrEquiv1 dot_S1024x64_S2048x64_S1024x2048_1_1_0_0_n_n 64 rfl rfl).symm]
  refine Finset.sum_congr rfl fun h _ => ?_
  have hk := contrEquiv1_symm_val dot_S1024x64_S2048x64_S1024x2048_1_1_0_0_n_n 64 rfl rfl h
  have el : dot_S1024x64_S2048x64_S1024x2048_1_1_0_0_n_n.lhsIdx (ix2 r s)
      ((contrEquiv1 dot_S1024x64_S2048x64_S1024x2048_1_1_0_0_n_n 64 rfl rfl).symm h) = ix2 r h :=
    funext fun a => Fin.ext (by
      match a with
      | ⟨0, _⟩ => exact mmQK_lhs_row _ _
      | ⟨1, _⟩ => exact (dot_S1024x64_S2048x64_S1024x2048_1_1_0_0_n_n.lhsIdx_val_of_single rfl _ _).trans hk)
  have er : dot_S1024x64_S2048x64_S1024x2048_1_1_0_0_n_n.rhsIdx (ix2 r s)
      ((contrEquiv1 dot_S1024x64_S2048x64_S1024x2048_1_1_0_0_n_n 64 rfl rfl).symm h) = ix2 s h :=
    funext fun a => Fin.ext (by
      match a with
      | ⟨0, _⟩ => exact mmQK_rhs_row _ _
      | ⟨1, _⟩ => exact (dot_S1024x64_S2048x64_S1024x2048_1_1_0_0_n_n.rhsIdx_val_of_single rfl _ _).trans hk)
  rw [el, er]

/-- The weighted-sum product's left operand index keeps the output row. -/
theorem mmPV_lhs_row (j : S1024x64.Idx) (q : dot_S1024x2048_S2048x64_S1024x64_1_0_0_1_n_n.contr.Idx) :
    (dot_S1024x2048_S2048x64_S1024x64_1_0_0_1_n_n.lhsIdx j q 0).val = (j 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl

/-- The weighted-sum product's right operand index keeps the output column. -/
theorem mmPV_rhs_col (j : S1024x64.Idx) (q : dot_S1024x2048_S2048x64_S1024x64_1_0_0_1_n_n.contr.Idx) :
    (dot_S1024x2048_S2048x64_S1024x64_1_0_0_1_n_n.rhsIdx j q 1).val = (j 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- The product of a [1024, 2048] block of weights with a [2048, 64] block of value rows into the zero accumulator, at
    row `r` and feature `h`: the sum over the 2048 key positions. -/
theorem mmPV_apply (A : FVec Ideal S1024x2048 .bf16) (B : FVec Ideal S2048x64 .bf16) (r : Fin 1024) (h : Fin 64) :
    matmul dot_S1024x2048_S2048x64_S1024x64_1_0_0_1_n_n none A B (constant (F := Ideal) S1024x64 .f32 0x00000000#32) (ix2 r h)
      = ∑ s : Fin 2048, A (ix2 r s) * B (ix2 s h) := by
  refine (Ideal.matmul_constant_zero_apply dot_S1024x2048_S2048x64_S1024x64_1_0_0_1_n_n none A B (ix2 r h)).trans ?_
  rw [← Equiv.sum_comp (contrEquiv1 dot_S1024x2048_S2048x64_S1024x64_1_0_0_1_n_n 2048 rfl rfl).symm]
  refine Finset.sum_congr rfl fun s _ => ?_
  have hk := contrEquiv1_symm_val dot_S1024x2048_S2048x64_S1024x64_1_0_0_1_n_n 2048 rfl rfl s
  have el : dot_S1024x2048_S2048x64_S1024x64_1_0_0_1_n_n.lhsIdx (ix2 r h)
      ((contrEquiv1 dot_S1024x2048_S2048x64_S1024x64_1_0_0_1_n_n 2048 rfl rfl).symm s) = ix2 r s :=
    funext fun a => Fin.ext (by
      match a with
      | ⟨0, _⟩ => exact mmPV_lhs_row _ _
      | ⟨1, _⟩ => exact (dot_S1024x2048_S2048x64_S1024x64_1_0_0_1_n_n.lhsIdx_val_of_single rfl _ _).trans hk)
  have er : dot_S1024x2048_S2048x64_S1024x64_1_0_0_1_n_n.rhsIdx (ix2 r h)
      ((contrEquiv1 dot_S1024x2048_S2048x64_S1024x64_1_0_0_1_n_n 2048 rfl rfl).symm s) = ix2 s h :=
    funext fun a => Fin.ext (by
      match a with
      | ⟨0, _⟩ => exact (dot_S1024x2048_S2048x64_S1024x64_1_0_0_1_n_n.rhsIdx_val_of_single rfl _ _).trans hk
      | ⟨1, _⟩ => exact mmPV_rhs_col _ _)
  rw [el, er]

/-! ### The causal mask of a block of query rows -/

/-- The word of `1024 · n + r` for a block number `n < 2` and a row `r < 1024`, read signed, is that number. -/
theorem toInt_rowWord (n : ℕ) (hn : n < 2) (r : ℕ) (hr : r < 1024) :
    (IntOp.addi (Scalar.muli (BitVec.ofNat 32 n) 1024#32) (BitVec.ofNat 32 r)).toInt = ((1024 * n + r : ℕ) : Int) := by
  have h1 : (IntOp.addi (Scalar.muli (BitVec.ofNat 32 n) 1024#32) (BitVec.ofNat 32 r)).toNat = 1024 * n + r := by
    show ((BitVec.ofNat 32 n) * 1024#32 + BitVec.ofNat 32 r).toNat = 1024 * n + r
    rw [BitVec.toNat_add, BitVec.toNat_mul, BitVec.toNat_ofNat, BitVec.toNat_ofNat]
    show (n % 2 ^ 32 * 1024 % 2 ^ 32 + r % 2 ^ 32) % 2 ^ 32 = 1024 * n + r
    omega
  rw [BitVec.toInt_eq_toNat_of_lt (by rw [h1]; omega), h1]

/-- The word of a key position below 2048, read signed, is that position. -/
theorem toInt_colWord (s : ℕ) (hs : s < 2048) : (BitVec.ofNat 32 s).toInt = (s : Int) := by
  have h1 : (BitVec.ofNat 32 s).toNat = s := by rw [BitVec.toNat_ofNat]; omega
  rw [BitVec.toInt_eq_toNat_of_lt (by rw [h1]; omega), h1]

/-- The mask of block `n` at row `r` and key position `s`: the column counter is compared, signed, with the block's first
    row plus the row counter, so the bit is set exactly when `s ≤ 1024 · n + r`. -/
theorem mask_apply (n : ℕ) (hn : n < 2) (r : Fin 1024) (s : Fin 2048) :
    cmpi .sle (iota .tc S1024x2048 32 [1] iota_S1024x2048_d1_w32)
        (addi (broadcast S1024x2048 (Scalar.muli (BitVec.ofNat 32 n) 1024#32))
          (iota .tc S1024x2048 32 [0] iota_S1024x2048_d0_w32)) (ix2 r s)
      = if s.val ≤ 1024 * n + r.val then 1#1 else 0#1 := by
  show IntOp.cmpi .sle (iota .tc S1024x2048 32 [1] iota_S1024x2048_d1_w32 (ix2 r s))
      (IntOp.addi (Scalar.muli (BitVec.ofNat 32 n) 1024#32) (iota .tc S1024x2048 32 [0] iota_S1024x2048_d0_w32 (ix2 r s))) = _
  rw [iota_single_apply, iota_single_apply]
  show IntOp.cmpi .sle (BitVec.ofNat 32 s.val) (IntOp.addi (Scalar.muli (BitVec.ofNat 32 n) 1024#32) (BitVec.ofNat 32 r.val)) = _
  by_cases hst : s.val ≤ 1024 * n + r.val
  · rw [if_pos hst, IntOp.cmpi_sle.2 (by
      rw [toInt_colWord _ s.isLt, toInt_rowWord n hn _ r.isLt]; exact Int.ofNat_le.2 hst)]
  · have hc : IntOp.cmpi .sle (BitVec.ofNat 32 s.val)
        (IntOp.addi (Scalar.muli (BitVec.ofNat 32 n) 1024#32) (BitVec.ofNat 32 r.val)) = 0#1 :=
      eq_zero_of_ne_one (fun e => hst (by
        have h2 := IntOp.cmpi_sle.1 e
        rw [toInt_colWord _ s.isLt, toInt_rowWord n hn _ r.isLt] at h2
        exact Int.ofNat_le.1 h2))
    rw [if_neg hst, hc]

/-! ### A row's maximum and sum -/

/-- The maximum over the key axis of a [1024, 2048] array from the accumulator `-∞`, at row `r`: the fold of `max`
    from `-∞` over the key positions. -/
theorem rowMaxK_apply (X : FVec Ideal S1024x2048 .f32) (hφ : FKind.Formats .f32)
    (hacc : (0xFF800000#32 : BitVec 32) = FKind.maximumf.neutral .f32 hφ) (r : Fin 1024) :
    multiReduction (F := Ideal) .maximumf [1] S1024 X 0xFF800000#32 reduces_S1024x2048_S1024 hφ hacc (ix1 r)
      = (Finset.univ : Finset (Fin 2048)).fold max ⊥ (fun s => X (ix2 r s)) := by
  refine (Ideal.multiReduction_maximumf_single X 0xFF800000#32 reduces_S1024x2048_S1024 hφ hacc (ix1 r)).trans ?_
  have e0 : FloatOps.ofBits (F := Ideal) .f32 0xFF800000#32 = (⊥ : EReal) := negInf
  have ef : ∀ s : Fin 2048, X (reduces_S1024x2048_S1024.lift (ix1 r) s) = X (ix2 r s) := fun s =>
    congrArg X (funext fun a => Fin.ext (by match a with | ⟨0, _⟩ => rfl | ⟨1, _⟩ => rfl))
  rw [e0]
  exact congrArg (fun f : Fin 2048 → EReal => (Finset.univ : Finset (Fin 2048)).fold max ⊥ f) (funext ef)

/-- The sum over the key axis of a [1024, 2048] array, at row `r`. -/
theorem rowSumK_apply (X : FVec Ideal S1024x2048 .f32) (hφ : FKind.Formats .f32)
    (hacc : (0x00000000#32 : BitVec 32) = FKind.add.neutral .f32 hφ) (r : Fin 1024) :
    multiReduction (F := Ideal) .add [1] S1024 X 0x00000000#32 reduces_S1024x2048_S1024 hφ hacc (ix1 r)
      = ∑ s : Fin 2048, X (ix2 r s) := by
  refine (Ideal.multiReduction_add_single X 0x00000000#32 reduces_S1024x2048_S1024 hφ hacc (ix1 r)).trans ?_
  refine Finset.sum_congr rfl fun s _ => ?_
  exact congrArg X (funext fun a => Fin.ext (by match a with | ⟨0, _⟩ => rfl | ⟨1, _⟩ => rfl))

/-! ### The masked scores of a block, and the shifted exponentials -/

/-- The masked scaled scores the body forms from its query block and key block: the product of the query rows with the
    transposed key rows, times one eighth, with the fill value after the query position. -/
def maskedScores (i : grid1.Coords) (x0 : Vec Ideal S1x1024x64 .bf16) (x1 : Vec Ideal S1x2048x64 .bf16) :
    FVec Ideal S1024x2048 .f32 :=
  select
    (cmpi .sle (iota .tc S1024x2048 32 [1] iota_S1024x2048_d1_w32)
      (addi (broadcast S1024x2048 (Scalar.muli (BitVec.ofNat 32 (i 1).val) 1024#32))
        (iota .tc S1024x2048 32 [0] iota_S1024x2048_d0_w32)))
    (mulf (matmul dot_S1024x64_S2048x64_S1024x2048_1_1_0_0_n_n none
        (shapeCast S1024x64 x0 shapeCasts_S1x1024x64_S1024x64 : FVec Ideal S1024x64 .bf16)
        (shapeCast S2048x64 x1 shapeCasts_S1x2048x64_S2048x64 : FVec Ideal S2048x64 .bf16)
        (constant S1024x2048 .f32 0x00000000#32))
      (broadcast S1024x2048 (Scalar.ofBits .f32 0x3E000000#32)))
    (broadcast S1024x2048 (Named.named Cert.KernelIdeal.κ "neg_big" 0xFF333332#32))

section
variable (q k v : Cert.Attn.Proj) (b : Fin 16) (i : grid1.Coords)
  (x0 : Vec Ideal S1x1024x64 .bf16) (x1 x2 : Vec Ideal S1x2048x64 .bf16) (j : Fin 2) (hj : (i 1).val = j.val)
  (hx0 : ∀ (r : Fin 1024) (h : Fin 64), x0 (ix3 (0 : Fin 1) r h) = q b ⟨1024 * j.val + r.val, by omega⟩ h)
  (hx1 : ∀ (s : Fin 2048) (h : Fin 64), x1 (ix3 (0 : Fin 1) s h) = k b s h)
  (hx2 : ∀ (s : Fin 2048) (h : Fin 64), x2 (ix3 (0 : Fin 1) s h) = v b s h)

include hj hx0 hx1 in
/-- The block's masked scores at row `r` and key position `s` are the specification's at query position `1024 · j + r`. -/
theorem maskedScores_apply (r : Fin 1024) (s : Fin 2048) :
    maskedScores i x0 x1 (ix2 r s) = Cert.Attn.masked q k b ⟨1024 * j.val + r.val, by omega⟩ s := by
  unfold maskedScores
  rw [select_apply, mask_apply (i 1).val (by omega) r s, mulf_apply, mmQK_apply, broadcast_apply, broadcast_apply]
  have hs : Scalar.ofBits (F := Ideal) .f32 0x3E000000#32 = Cert.Attn.scale := rfl
  have hsum : ∑ h : Fin 64, shapeCast S1024x64 x0 shapeCasts_S1x1024x64_S1024x64 (ix2 r h)
        * shapeCast S2048x64 x1 shapeCasts_S1x2048x64_S2048x64 (ix2 s h)
      = ∑ h : Fin 64, q b ⟨1024 * j.val + r.val, by omega⟩ h * k b s h :=
    Finset.sum_congr rfl fun h _ => by
      rw [shapeCast_1ab_ab_apply (a := 1024) (b := 64) x0 _ r h, shapeCast_1ab_ab_apply (a := 2048) (b := 64) x1 _ s h,
        hx0, hx1]
  rw [hs, hsum, negBig, hj]
  unfold Cert.Attn.masked Cert.Attn.score
  by_cases hst : s.val ≤ 1024 * j.val + r.val
  · rw [if_pos hst, if_pos hst, select_one]
  · rw [if_neg hst, if_neg hst, select_zero]

/-- The exponential of a [1024, 2048] array less its rows' maxima (the maxima cast to a column and broadcast along the rows),
    at row `r` and key position `s`. -/
theorem expShift_apply (X : FVec Ideal S1024x2048 .f32) (hφ : FKind.Formats .f32)
    (hacc : (0xFF800000#32 : BitVec 32) = FKind.maximumf.neutral .f32 hφ) (r : Fin 1024) (s : Fin 2048) :
    exp (subf X (broadcastTo S1024x2048
        (shapeCast S1024x1 (multiReduction (F := Ideal) .maximumf [1] S1024 X 0xFF800000#32 reduces_S1024x2048_S1024 hφ hacc)
          shapeCasts_S1024_S1024x1) broadcasts_S1024x1_S1024x2048)) (ix2 r s)
      = Ideal.exp (X (ix2 r s) - (Finset.univ : Finset (Fin 2048)).fold max ⊥ (fun s' => X (ix2 r s'))) := by
  show Ideal.exp (X (ix2 r s) - broadcastTo S1024x2048
        (shapeCast S1024x1 (multiReduction (F := Ideal) .maximumf [1] S1024 X 0xFF800000#32 reduces_S1024x2048_S1024 hφ hacc)
          shapeCasts_S1024_S1024x1) broadcasts_S1024x1_S1024x2048 (ix2 r s)) = _
  rw [broadcastTo_col_apply (n := 2048) _ _ r s, shapeCast_col_apply _ _ r (0 : Fin 1), rowMaxK_apply X hφ hacc r]

include hj hx0 hx1 in
/-- The shifted exponential of the block's masked scores is the specification's unnormalised weight. -/
theorem weightK_apply (r : Fin 1024) (s : Fin 2048) :
    Ideal.exp (maskedScores i x0 x1 (ix2 r s)
        - (Finset.univ : Finset (Fin 2048)).fold max ⊥ (fun s' => maskedScores i x0 x1 (ix2 r s')))
      = Cert.Attn.weight q k b ⟨1024 * j.val + r.val, by omega⟩ s := by
  rw [maskedScores_apply q k b i x0 x1 j hj hx0 hx1 r s,
    funext (fun s' => maskedScores_apply q k b i x0 x1 j hj hx0 hx1 r s')]
  rfl

include hj hx0 hx1 hx2 in
/-- The value the attention body stores, at row `r` and feature `h` of its block: the specification's output with one
    division after the weighted sum, at query position `1024 · j + r`. -/
theorem payO_apply (r : Fin 1024) (h : Fin 64) :
    k1_pay1 (F := Ideal) i x0 x1 x2 (ix3 (0 : Fin 1) r h)
      = Cert.Attn.outSumThenDiv q k v b ⟨1024 * j.val + r.val, by omega⟩ h := by
  unfold k1_pay1
  refine (shapeCast_ab_1ab_apply (a := 1024) (b := 64) _ _ (0 : Fin 1) r h).trans ?_
  refine (divf_apply _ _ _).trans ?_
  unfold Cert.Attn.outSumThenDiv
  refine congrArg₂ Ideal.div ?_ ?_
  · refine (mmPV_apply _ _ r h).trans ?_
    refine Finset.sum_congr rfl fun s _ => ?_
    refine congrArg₂ (· * ·) ?_ ?_
    · refine (truncf_apply (φ := .f32) (ψ := .bf16) _ bitsLt_bf16_f32 (ix2 r s)).trans ?_
      refine (expShift_apply (maskedScores i x0 x1) _ _ r s).trans ?_
      exact weightK_apply q k b i x0 x1 j hj hx0 hx1 r s
    · exact (shapeCast_1ab_ab_apply (a := 2048) (b := 64) x2 _ s h).trans (hx2 s h)
  · refine (broadcastTo_col_apply (n := 64) _ _ r h).trans ?_
    refine (shapeCast_col_apply _ _ r (0 : Fin 1)).trans ?_
    refine (rowSumK_apply _ _ _ r).trans ?_
    unfold Cert.Attn.denom
    refine Finset.sum_congr rfl fun s _ => ?_
    refine (expShift_apply (maskedScores i x0 x1) _ _ r s).trans ?_
    exact weightK_apply q k b i x0 x1 j hj hx0 hx1 r s

end

end Cert.KernelIdeal.AttnPay

end
-- ==== Proof.KIAttnValue.lean ====
/-
  What the attention region leaves, at the ideal instance, and so what the whole kernel program computes: the result
  array is the attention of `x` under the three weights, with one division after the weighted sum.

  The attention region is entered with the three projected arrays in place (what the projection region left).  At grid
  point `(b, j)` its query block is rows `1024 j … 1024 j + 1023` of batch `b` of `x·Wq`, its key and value blocks all of
  batch `b` of `x·Wk` and `x·Wv`, and what it stores is rows `1024 j …` of batch `b` of the attention.  The 32 output blocks
  tile the result array.
-/
import proofs.«126121_j90881507983860_2_alg».proof.Proof.KIProjValue
import proofs.«126121_j90881507983860_2_alg».proof.Proof.KIAttnPayload
set_option maxRecDepth 16384

noncomputable section

namespace Cert.KernelIdeal.AttnValue

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The result array the specification gives: attention of `x` under the three weights, one division after the sum. -/
def arrO (c : Dev nD) : S16x2048x64.Idx → EReal :=
  Cert.Attn.attnSumThenDiv (m ((c : Thread nD τ).loc main_arg0)) (m ((c : Thread nD τ).loc main_arg1))
    (m ((c : Thread nD τ).loc main_arg2)) (m ((c : Thread nD τ).loc main_arg3))

/-- The printed index maps, decided over the grid: the query and output blocks move together, batch `b` and tile `j`; the
    key and value blocks are the whole of batch `b`; the tile is the grid's second coordinate. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0 ∧ win1_3.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) < 16 ∧ win1_3.index t (1 : Fin 3) < 2
    ∧ ((grid1.coords t) (1 : Fin 2)).val = win1_3.index t (1 : Fin 3) :=
  (by decide +kernel : ∀ t : Fin grid1.N, _)

/-- Every block of the result array is some grid point's. -/
theorem idx_onto : ∀ (q0 : Fin 16) (q1 : Fin 2), ∃ t : Fin cfg1.N, win1_3.index t = ![q0.val, q1.val, 0] :=
  (by decide +kernel : ∀ (q0 : Fin 16) (q1 : Fin 2), ∃ t : Fin grid1.N, win1_3.index t = ![q0.val, q1.val, 0])

/-- What grid point `t = (b, j)` writes back is block `t` of the specification's result: the query block is rows
    `1024 j …` of batch `b` of the projected queries, the key and value blocks all of batch `b`. -/
theorem flushedO_eq (c : Dev nD) (t : Fin cfg1.N) :
    (Attn.dat (Vp m ρ) c).flushed 3 t = ((cfg1.win 3).blk t).view.read (Elt Ideal) (arrO m c) := by
  show (cfg1.win 3).cut (grid1.coords t) ((Attn.dat (Vp m ρ) c).after 3 t) = _
  rw [Attn.after_o]
  unfold Attn.outO
  rw [View.canon_unit_zero hz3]
  simp only [View.ld_unit_zero (S := S1x1024x64) hz3, View.ld_unit_zero (S := S1x2048x64) hz3]
  obtain ⟨e0, e1, e2, e3, e4, e5, e6, e7, e8, e9, e10, e11, e12⟩ := idx_facts t
  funext j
  revert j
  show ∀ j : S1x1024x64.Idx, k1_pay1 (F := Ideal) (grid1.coords t) (Attn.iblk (Vp m ρ) c 0 t) (Attn.iblk (Vp m ρ) c 1 t) (Attn.iblk (Vp m ρ) c 2 t) j
      = arrO m c (((cfg1.win 3).blk t).view.emb j)
  intro j
  obtain ⟨r, h, rfl⟩ : ∃ (r : Fin 1024) (h : Fin 64), j = ix3 (0 : Fin 1) r h :=
    ⟨j 1, j 2, funext fun a => by
      match a with
      | ⟨0, _⟩ => exact Fin.ext (Nat.lt_one_iff.mp (j 0).isLt)
      | ⟨1, _⟩ => rfl
      | ⟨2, _⟩ => rfl⟩
  refine (AttnPay.payO_apply (Cert.Attn.proj (m ((c : Thread nD τ).loc main_arg0)) (m ((c : Thread nD τ).loc main_arg1)))
      (Cert.Attn.proj (m ((c : Thread nD τ).loc main_arg0)) (m ((c : Thread nD τ).loc main_arg2)))
      (Cert.Attn.proj (m ((c : Thread nD τ).loc main_arg0)) (m ((c : Thread nD τ).loc main_arg3)))
      ⟨win1_3.index t (0 : Fin 3), e10⟩ (grid1.coords t) _ _ _ ⟨win1_3.index t (1 : Fin 3), e11⟩ e12 ?_ ?_ ?_ r h).trans ?_
  · intro r' h'
    show (Vp m ρ c main_v1_0 : S16x2048x64.Idx → EReal) (((cfg1.win 0).blk t).view.emb (ix3 (0 : Fin 1) r' h')) = _
    rw [ProjValue.entry_Q]
    show ProjValue.arrQ m c _ = ProjValue.arrQ m c (ix3 (⟨win1_3.index t (0 : Fin 3), e10⟩ : Fin 16) (⟨1024 * win1_3.index t (1 : Fin 3) + r'.val, by omega⟩ : Fin 2048) h')
    refine congrArg _ (funext fun a => Fin.ext ?_)
    match a with
    | ⟨0, _⟩ => show win1_0.index t (0 : Fin 3) * 1 + 1 * 0 = win1_3.index t (0 : Fin 3); omega
    | ⟨1, _⟩ => show win1_0.index t (1 : Fin 3) * 1024 + 1 * r'.val = 1024 * win1_3.index t (1 : Fin 3) + r'.val; omega
    | ⟨2, _⟩ => show win1_0.index t (2 : Fin 3) * 64 + 1 * h'.val = h'.val; omega
  · intro s h'
    show (Vp m ρ c main_v1_1 : S16x2048x64.Idx → EReal) (((cfg1.win 1).blk t).view.emb (ix3 (0 : Fin 1) s h')) = _
    rw [ProjValue.entry_K]
    show ProjValue.arrK m c _ = ProjValue.arrK m c (ix3 (⟨win1_3.index t (0 : Fin 3), e10⟩ : Fin 16) s h')
    refine congrArg _ (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * s.val = s.val; omega
    | ⟨2, _⟩ => show win1_1.index t (2 : Fin 3) * 64 + 1 * h'.val = h'.val; omega
  · intro s h'
    show (Vp m ρ c main_v1_2 : S16x2048x64.Idx → EReal) (((cfg1.win 2).blk t).view.emb (ix3 (0 : Fin 1) s h')) = _
    rw [ProjValue.entry_V]
    show ProjValue.arrV m c _ = ProjValue.arrV m c (ix3 (⟨win1_3.index t (0 : Fin 3), e10⟩ : Fin 16) s h')
    refine congrArg _ (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * s.val = s.val; omega
    | ⟨2, _⟩ => show win1_2.index t (2 : Fin 3) * 64 + 1 * h'.val = h'.val; omega
  · have hE : (((cfg1.win 3).blk t).view.emb (ix3 (0 : Fin 1) r h) : S16x2048x64.Idx)
        = ix3 (⟨win1_3.index t (0 : Fin 3), e10⟩ : Fin 16) (⟨1024 * win1_3.index t (1 : Fin 3) + r.val, by omega⟩ : Fin 2048) h := by
      funext a; apply Fin.ext
      match a with
      | ⟨0, _⟩ => show win1_3.index t (0 : Fin 3) * 1 + 1 * 0 = win1_3.index t (0 : Fin 3); omega
      | ⟨1, _⟩ => show win1_3.index t (1 : Fin 3) * 1024 + 1 * r.val = 1024 * win1_3.index t (1 : Fin 3) + r.val; omega
      | ⟨2, _⟩ => show win1_3.index t (2 : Fin 3) * 64 + 1 * h.val = h.val; omega
    rw [hE]
    rfl

/-- An index of the array is in point `t`'s block iff each coordinate is in the block's range on its axis. -/
theorem mem_blk (t : Fin cfg1.N) (i : S16x2048x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v2).slice (win1_3.rect t)).set ↔ _
  rw [View.set_slice_whole, Rect.mem_set_unit]
  exact Iff.rfl

/-- The blocks tile the result array. -/
theorem cover (i : S16x2048x64.Idx) : ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- The result array after the attention region is the specification's. -/
theorem final (c : Dev nD) : (Attn.dat (Vp m ρ) c).arrAt 3 cfg1.N = arrO m c :=
  (Attn.dat (Vp m ρ) c).arrAt_eq_of_cover 3 (arrO m c) (fun t _ => flushedO_eq m ρ c t) cover

/-- THE KERNEL'S RUN, READ: every weakly fair execution terminates with the result array at the specification's
    attention (one division after the sum) of the argument arrays, and the arguments unchanged. -/
theorem run : θ_run defs (onTc (τ := τ) (main (F := Ideal))) ⟨m, fun _ => 0, ρ⟩ (fun r => ∀ c : Dev nD,
      r.2.mem ((c.tc : Thread nD τ).loc main_v2) = arrO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans ((Wa_arr m ρ c 3).trans (final m ρ c)),
     (h c _ (mem_uc main_arg0 (by decide))).trans (Wa_main_arg0 m ρ c),
     (h c _ (mem_uc main_arg1 (by decide))).trans (Wa_main_arg1 m ρ c),
     (h c _ (mem_uc main_arg2 (by decide))).trans (Wa_main_arg2 m ρ c),
     (h c _ (mem_uc main_arg3 (by decide))).trans (Wa_main_arg3 m ρ c)⟩) (run_all m ρ)

end Cert.KernelIdeal.AttnValue

end
-- ==== Proof.RefImports.lean ====
/-
  The reference program's run and its read-at-an-index lemmas, gathered for the modules that compare the
  reference's result with the attention specification.
-/
import proofs.«126121_j90881507983860_2_alg».proof.Proof.Gen.ReferenceIdeal.Run
import proofs.«126121_j90881507983860_2_alg».proof.Proof.Gen.ReferenceIdeal.Read
-- ==== Proof.RefAttn.lean ====
/-
  The reference program computes the attention specification in its divide-then-sum arrangement.

  Every operation of the reference is read at an index, outermost last: the three projections are the sums over the
  1024 input features; the scores are the sums over the 64 projected features times one eighth; the lower-triangular
  mask is the comparison "key position ≤ query position" of two index counters; the masked row's maximum is a fold of
  `max` from `-∞`; the weights are the exponentials of the shifted row; their sum is the normaliser; every weight is
  divided by it; and the result is the sum over the key positions of the normalised weights times the value rows.
  No finiteness is used: each step is an identity of extended reals.
-/
import proofs.«126121_j90881507983860_2_alg».proof.Proof.RefImports
import proofs.«126121_j90881507983860_2_alg».proof.Proof.AttnSpec
import Idealize.ShloMosaic.PureOps.Ideal.Laws
import Idealize.ShloMosaic.PureOps.Reduce
import Idealize.ShloMosaic.Lib.ValueIdx
import Idealize.ShloMosaic.Lib.Affine

noncomputable section

namespace Cert.Attn.Ref

open Cert.ReferenceIdeal Cert.ReferenceIdeal.Gen Cert.ReferenceIdeal.Read Idealize.ShloMosaic Idealize.ShloMosaic.ValueIdx

/-- The binary32 word `0xFF800000` denotes `-∞`. -/
theorem negInf_f32 : Ideal.ofBits .f32 0xFF800000#32 = (⊥ : EReal) := by simp [Ideal.ofBits, Ideal.ieee]

/-- A position below 2048, as a 32-bit word read signed, is itself. -/
theorem toInt_ofNat_small (n : Nat) (hn : n < 2048) : (BitVec.ofNat 32 n).toInt = (n : Int) := by
  have h1 : (BitVec.ofNat 32 n).toNat = n := by rw [BitVec.toNat_ofNat]; omega
  rw [BitVec.toInt_eq_toNat_of_lt (by rw [h1]; omega), h1]

/-- The broadcast lower-triangular mask at (b, t, s): the row counter plus zero is compared, signed, with the column
    counter, so the bit is set exactly when the key position `s` is at most the query position `t`. -/
theorem mask_eq (b : Fin 16) (t s : Fin 2048) :
    val_main_call1_v1 (F := Ideal) (ix3 b t s) = if s.val ≤ t.val then 1#1 else 0#1 := by
  rw [val_main_call1_v1_apply, val_main_v7_apply, val_main_call0_v4_apply, val_main_call0_v2_apply,
    val_main_call0_v0_apply, val_main_call0_v1_apply, val_main_call0_c_apply, val_main_call0_v3_apply,
    val_main_v6_apply, val_main_c_apply, val_main_call0_v5_apply, val_main_call0_c_0_apply]
  show Scalar.select (IntOp.cmpi CmpIPredicate.sge (IntOp.addi (BitVec.ofNat 32 t.val) 0#32) (BitVec.ofNat 32 s.val)) 1#1 0#1
    = if s.val ≤ t.val then 1#1 else 0#1
  have ha : IntOp.addi (BitVec.ofNat 32 t.val) 0#32 = BitVec.ofNat 32 t.val := BitVec.add_zero _
  rw [ha]
  by_cases hst : s.val ≤ t.val
  · rw [if_pos hst, IntOp.cmpi_sge.2 (by
      rw [toInt_ofNat_small _ s.isLt, toInt_ofNat_small _ t.isLt]; exact Int.ofNat_le.2 hst), select_one]
  · have hc : IntOp.cmpi CmpIPredicate.sge (BitVec.ofNat 32 t.val) (BitVec.ofNat 32 s.val) = 0#1 :=
      eq_zero_of_ne_one (fun e => hst (by
        have h2 := IntOp.cmpi_sge.1 e
        rw [toInt_ofNat_small _ s.isLt, toInt_ofNat_small _ t.isLt] at h2
        exact Int.ofNat_le.1 h2))
    rw [if_neg hst, hc, select_zero]

section
variable (x0 : Arr3 16 2048 1024) (x1 x2 x3 : Arr2 1024 64)

/-- The first projection at (b, t, h) is the sum over the input features. -/
theorem proj0_eq (b : Fin 16) (t : Fin 2048) (h : Fin 64) :
    val_main_v0 (F := Ideal) x0 x1 (ix3 b t h) = proj x0 x1 b t h := by
  rw [val_main_v0_apply]
  unfold proj
  refine Finset.sum_congr rfl fun c _ => ?_
  have e1 : lidx_main_v0 (ix3 b t h) c = ix3 b t c := funext fun a => Fin.ext (by
    match a with | ⟨0, _⟩ => rfl | ⟨1, _⟩ => rfl | ⟨2, _⟩ => rfl)
  have e2 : ridx_main_v0 (ix3 b t h) c = ix2 c h := funext fun a => Fin.ext (by
    match a with | ⟨0, _⟩ => rfl | ⟨1, _⟩ => rfl)
  rw [e1, e2]

/-- The second projection likewise. -/
theorem proj1_eq (b : Fin 16) (t : Fin 2048) (h : Fin 64) :
    val_main_v1 (F := Ideal) x0 x2 (ix3 b t h) = proj x0 x2 b t h := by
  rw [val_main_v1_apply]
  unfold proj
  refine Finset.sum_congr rfl fun c _ => ?_
  have e1 : lidx_main_v1 (ix3 b t h) c = ix3 b t c := funext fun a => Fin.ext (by
    match a with | ⟨0, _⟩ => rfl | ⟨1, _⟩ => rfl | ⟨2, _⟩ => rfl)
  have e2 : ridx_main_v1 (ix3 b t h) c = ix2 c h := funext fun a => Fin.ext (by
    match a with | ⟨0, _⟩ => rfl | ⟨1, _⟩ => rfl)
  rw [e1, e2]

/-- The third projection likewise. -/
theorem proj2_eq (b : Fin 16) (t : Fin 2048) (h : Fin 64) :
    val_main_v2 (F := Ideal) x0 x3 (ix3 b t h) = proj x0 x3 b t h := by
  rw [val_main_v2_apply]
  unfold proj
  refine Finset.sum_congr rfl fun c _ => ?_
  have e1 : lidx_main_v2 (ix3 b t h) c = ix3 b t c := funext fun a => Fin.ext (by
    match a with | ⟨0, _⟩ => rfl | ⟨1, _⟩ => rfl | ⟨2, _⟩ => rfl)
  have e2 : ridx_main_v2 (ix3 b t h) c = ix2 c h := funext fun a => Fin.ext (by
    match a with | ⟨0, _⟩ => rfl | ⟨1, _⟩ => rfl)
  rw [e1, e2]

/-- The scaled scores at (b, t, s): the inner product of query row `t` and key row `s`, times the scale word. -/
theorem score_eq (b : Fin 16) (t s : Fin 2048) :
    val_main_v5 (F := Ideal) x0 x1 x2 (ix3 b t s) = score (proj x0 x1) (proj x0 x2) b t s := by
  rw [val_main_v5_apply, val_main_v3_apply, val_main_v4_apply, val_main_cst_apply]
  unfold score scale
  rw [Ideal.mulf_def, Ideal.ofBits_def]
  refine congrArg (· * _) (Finset.sum_congr rfl fun h _ => ?_)
  have e1 : lidx_main_v3 (ix3 b t s) h = ix3 b t h := funext fun a => Fin.ext (by
    match a with | ⟨0, _⟩ => rfl | ⟨1, _⟩ => rfl | ⟨2, _⟩ => rfl)
  have e2 : ridx_main_v3 (ix3 b t s) h = ix3 b s h := funext fun a => Fin.ext (by
    match a with | ⟨0, _⟩ => rfl | ⟨1, _⟩ => rfl | ⟨2, _⟩ => rfl)
  rw [e1, e2, proj0_eq, proj1_eq]

/-- The masked scores: the score where `s ≤ t`, `-∞` elsewhere. -/
theorem masked_eq (b : Fin 16) (t s : Fin 2048) :
    val_main_v8 (F := Ideal) x0 x1 x2 (ix3 b t s) = masked (proj x0 x1) (proj x0 x2) b t s := by
  rw [val_main_v8_apply, mask_eq, score_eq, val_main_call1_v2_apply, val_main_call1_v0_apply,
    val_main_cst_0_apply, Ideal.ofBits_def, negInf_f32]
  unfold masked
  by_cases hst : s.val ≤ t.val
  · rw [if_pos hst, if_pos hst, select_one]
  · rw [if_neg hst, if_neg hst, select_zero]

/-- The last axis of a [16, 2048, 2048] array reduces onto [16, 2048]. -/
theorem redWitness : Shape.Reduces S16x2048x2048 [2] S16x2048 := by decide

/-- The row maximum at (b, t): the reduction over the key axis is the fold of `max` from `-∞` over the key positions,
    and the further `max` with `-∞` changes nothing. -/
theorem rowMax_eq (b : Fin 16) (t : Fin 2048) :
    val_main_v11 (F := Ideal) x0 x1 x2 (ix2 b t) = rowMax (proj x0 x1) (proj x0 x2) b t := by
  rw [val_main_v11_apply, val_main_v10_apply, val_main_cst_2_apply, Ideal.maximumf_def, Ideal.ofBits_def, negInf_f32,
    bot_sup_eq]
  unfold val_main_v9
  rw [Host.reduce_eq_fold_single FloatOps.maximumf _ _ reducesTo_S16x2048x2048_S16x2048_d2 redWitness h_S_ (ix2 b t),
    val_main_cst_1_apply, Ideal.ofBits_def, negInf_f32]
  unfold rowMax
  have ef : ∀ s : Fin 2048, val_main_v8 (F := Ideal) x0 x1 x2 (redWitness.lift (ix2 b t) s)
      = masked (proj x0 x1) (proj x0 x2) b t s := by
    intro s
    have ei : redWitness.lift (ix2 b t) s = ix3 b t s := funext fun a => Fin.ext (by
      match a with | ⟨0, _⟩ => rfl | ⟨1, _⟩ => rfl | ⟨2, _⟩ => rfl)
    rw [ei, masked_eq]
  exact congrArg (fun f : Fin 2048 → EReal => (Finset.univ : Finset (Fin 2048)).fold max ⊥ f) (funext ef)

/-- The unnormalised weights: the exponential of the masked score less the row maximum. -/
theorem weight_eq (b : Fin 16) (t s : Fin 2048) :
    val_main_v15 (F := Ideal) x0 x1 x2 (ix3 b t s) = weight (proj x0 x1) (proj x0 x2) b t s := by
  have ei : idx_main_v12 (idx_main_v13 (ix3 b t s)) = ix2 b t := funext fun a => Fin.ext (by
    match a with | ⟨0, _⟩ => rfl | ⟨1, _⟩ => rfl)
  rw [val_main_v15_apply, val_main_v14_apply, val_main_v13_apply, val_main_v12_apply, masked_eq, ei, rowMax_eq,
    Ideal.hostUnary_exp_def, Ideal.subf_def]
  rfl

/-- The normaliser: zero plus the sum of a row's weights. -/
theorem denom_eq (b : Fin 16) (t : Fin 2048) :
    val_main_v16 (F := Ideal) x0 x1 x2 (ix2 b t) = denom (proj x0 x1) (proj x0 x2) b t := by
  rw [val_main_v16_apply, val_main_cst_3_apply, Ideal.ofBits_def, Ideal.ofBits_zero_f32, zero_add]
  unfold denom
  refine Finset.sum_congr rfl fun s _ => ?_
  have ei : idx_main_v16 (ix2 b t) s = ix3 b t s := funext fun a => Fin.ext (by
    match a with | ⟨0, _⟩ => rfl | ⟨1, _⟩ => rfl | ⟨2, _⟩ => rfl)
  rw [ei, weight_eq]

end

/-- The reference's result is the attention of the input under the three weights with every weight normalised
    before the sum over the key positions. -/
theorem ref_eq_spec (x0 : (⟨Cert.ReferenceIdeal.S16x2048x1024, .f32⟩ : BufTy).Contents (Elt Ideal))
    (x1 x2 x3 : (⟨Cert.ReferenceIdeal.S1024x64, .f32⟩ : BufTy).Contents (Elt Ideal)) :
    Cert.ReferenceIdeal.Read.val_main_v20 (F := Ideal) x0 x1 x2 x3 = Cert.Attn.attnDivThenSum x0 x1 x2 x3 := by
  funext i
  obtain ⟨b, t, h, rfl⟩ : ∃ (b : Fin 16) (t : Fin 2048) (h : Fin 64), i = ix3 b t h := ⟨i 0, i 1, i 2, eq_ix3 i⟩
  rw [val_main_v20_apply]
  show _ = outDivThenSum (proj x0 x1) (proj x0 x2) (proj x0 x3) b t h
  unfold outDivThenSum
  refine Finset.sum_congr rfl fun s _ => ?_
  have e1 : lidx_main_v20 (ix3 b t h) s = ix3 b t s := funext fun a => Fin.ext (by
    match a with | ⟨0, _⟩ => rfl | ⟨1, _⟩ => rfl | ⟨2, _⟩ => rfl)
  have e2 : ridx_main_v20 (ix3 b t h) s = ix3 b s h := funext fun a => Fin.ext (by
    match a with | ⟨0, _⟩ => rfl | ⟨1, _⟩ => rfl | ⟨2, _⟩ => rfl)
  have e3 : idx_main_v17 (idx_main_v18 (ix3 b t s)) = ix2 b t := funext fun a => Fin.ext (by
    match a with | ⟨0, _⟩ => rfl | ⟨1, _⟩ => rfl)
  rw [e1, e2, val_main_v19_apply, val_main_v18_apply, val_main_v17_apply, e3, weight_eq, denom_eq, proj2_eq,
    Ideal.hostDivf_def]

end Cert.Attn.Ref

end
-- ==== Proof.AttnLaw.lean ====
/-
  The two arrangements of single-head causal attention agree when every input entry is a real number.

  With real inputs every projection entry is a real (a finite sum of products of reals), so every score is a real and every
  masked score is a real or `-∞`, the diagonal entry `s = t` being a real.  The row maximum is then a real, each
  unnormalised weight `exp (masked − rowMax)` is a nonnegative real, the diagonal weight is positive, and the normaliser
  is a positive real `d`.  Division by `d` is multiplication by `1/d`, and in the reals
  `Σ_s (w_s · (1/d)) · v_s = (Σ_s w_s · v_s) · (1/d)`.
-/
import proofs.«126121_j90881507983860_2_alg».proof.Proof.AttnSpec
import Mathlib.Data.EReal.Basic
import Mathlib.Data.EReal.Operations
import Mathlib.Data.EReal.Inv
import Mathlib.Algebra.BigOperators.Ring.Finset
import Mathlib.Algebra.Order.BigOperators.Group.Finset
import Mathlib.Data.Finset.Fold
import Mathlib.Analysis.SpecialFunctions.Exp

noncomputable section

namespace Cert.Attn

open Idealize.ShloMosaic Idealize.ShloMosaic.ValueIdx

/-! ### Finite sums and products of reals inside the extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two reals is a real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A finite sum of reals is a real. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-! ### The algebraic law over abstract real data -/

/-- Dividing every weight by a nonzero real before the weighted sum, or the weighted sum once after it, is the same. -/
theorem sum_div_eq_div_sum {ι : Type*} (s : Finset ι) (w v : ι → ℝ) {d : ℝ} (hd : d ≠ 0) :
    ∑ i ∈ s, Ideal.div (w i : EReal) (d : EReal) * (v i : EReal)
      = Ideal.div (∑ i ∈ s, (w i : EReal) * (v i : EReal)) (d : EReal) := by
  rw [Ideal.div_coe hd]
  have hl : ∀ i ∈ s, Ideal.div (w i : EReal) (d : EReal) * (v i : EReal) = ((w i * (1 / d) * v i : ℝ) : EReal) := by
    intro i _
    rw [Ideal.div_coe hd, EReal.coe_mul, EReal.coe_mul]
  have hr : ∀ i ∈ s, (w i : EReal) * (v i : EReal) = ((w i * v i : ℝ) : EReal) := by
    intro i _
    rw [EReal.coe_mul]
  rw [Finset.sum_congr rfl hl, Finset.sum_congr rfl hr, ← coe_sum, ← coe_sum, ← EReal.coe_mul, Finset.sum_mul]
  congr 1
  exact Finset.sum_congr rfl fun i _ => by ring

/-! ### Real inputs give real projections, scores, weights and a positive normaliser -/

/-- A projection of real arrays is real at every coordinate. -/
theorem proj_real (x : Arr3 16 2048 1024) (W : Arr2 1024 64)
    (hx : ∀ i, ∃ r : ℝ, x i = (r : EReal)) (hW : ∀ i, ∃ r : ℝ, W i = (r : EReal))
    (b : Fin 16) (t : Fin 2048) (h : Fin 64) : ∃ r : ℝ, proj x W b t h = (r : EReal) := by
  unfold proj
  exact real_sum _ _ fun c => real_mul (hx _) (hW _)

/-- The score scale is a real. -/
theorem scale_real : ∃ r : ℝ, scale = (r : EReal) := by
  unfold scale
  simp [Ideal.ofBits, Ideal.ieee]
  exact ⟨_, (EReal.coe_mul _ _).symm⟩

section
variable (q k v : Proj)
variable (hq : ∀ b t h, ∃ r : ℝ, q b t h = (r : EReal)) (hk : ∀ b t h, ∃ r : ℝ, k b t h = (r : EReal))

include hq hk

/-- Every score of real projections is a real. -/
theorem score_real (b : Fin 16) (t s : Fin 2048) : ∃ r : ℝ, score q k b t s = (r : EReal) := by
  unfold score
  exact real_mul (real_sum _ _ fun h => real_mul (hq _ _ _) (hk _ _ _)) scale_real

/-- A masked score is a real or `-∞`. -/
theorem masked_real_or_bot (b : Fin 16) (t s : Fin 2048) :
    masked q k b t s = ⊥ ∨ ∃ r : ℝ, masked q k b t s = (r : EReal) := by
  unfold masked
  split
  · exact Or.inr (score_real q k hq hk b t s)
  · exact Or.inl rfl

/-- No masked score is `+∞`. -/
theorem masked_lt_top (b : Fin 16) (t s : Fin 2048) : masked q k b t s < ⊤ := by
  rcases masked_real_or_bot q k hq hk b t s with h | ⟨r, h⟩
  · rw [h]; exact bot_lt_top
  · rw [h]; exact EReal.coe_lt_top r

/-- The diagonal entry of a masked row is not masked, so it is a real. -/
theorem masked_diag_real (b : Fin 16) (t : Fin 2048) : ∃ r : ℝ, masked q k b t t = (r : EReal) := by
  unfold masked
  rw [if_pos (le_refl _)]
  exact score_real q k hq hk b t t

/-- The maximum of a masked row is a real: it is at least the diagonal entry and no entry is `+∞`. -/
theorem rowMax_real (b : Fin 16) (t : Fin 2048) : ∃ r : ℝ, rowMax q k b t = (r : EReal) := by
  obtain ⟨r, hr⟩ := masked_diag_real q k hq hk b t
  have hge : (r : EReal) ≤ rowMax q k b t := by
    unfold rowMax
    rw [Finset.le_fold_max]
    exact Or.inr ⟨t, Finset.mem_univ _, hr.ge⟩
  have hlt : rowMax q k b t < ⊤ := by
    unfold rowMax
    rw [Finset.fold_max_lt]
    exact ⟨bot_lt_top, fun s _ => masked_lt_top q k hq hk b t s⟩
  have hbot : rowMax q k b t ≠ ⊥ := fun h => by
    rw [h] at hge
    exact absurd (le_bot_iff.mp hge) (EReal.coe_ne_bot r)
  exact ⟨(rowMax q k b t).toReal, (EReal.coe_toReal hlt.ne hbot).symm⟩

/-- Every unnormalised weight is a nonnegative real. -/
theorem weight_real (b : Fin 16) (t s : Fin 2048) : ∃ r : ℝ, 0 ≤ r ∧ weight q k b t s = (r : EReal) := by
  obtain ⟨m, hm⟩ := rowMax_real q k hq hk b t
  unfold weight
  rw [hm]
  rcases masked_real_or_bot q k hq hk b t s with h | ⟨r, h⟩
  · rw [h, EReal.bot_sub]
    exact ⟨0, le_refl _, by rw [Ideal.exp_bot, EReal.coe_zero]⟩
  · rw [h, ← EReal.coe_sub]
    exact ⟨Real.exp (r - m), (Real.exp_pos _).le, rfl⟩

/-- The diagonal weight is a positive real. -/
theorem weight_diag_pos (b : Fin 16) (t : Fin 2048) : ∃ r : ℝ, 0 < r ∧ weight q k b t t = (r : EReal) := by
  obtain ⟨m, hm⟩ := rowMax_real q k hq hk b t
  obtain ⟨r, h⟩ := masked_diag_real q k hq hk b t
  unfold weight
  rw [hm, h, ← EReal.coe_sub]
  exact ⟨Real.exp (r - m), Real.exp_pos _, rfl⟩

/-- With real projections the two arrangements of a row's output agree. -/
theorem outDivThenSum_eq_outSumThenDiv (hv : ∀ b t h, ∃ r : ℝ, v b t h = (r : EReal))
    (b : Fin 16) (t : Fin 2048) (h : Fin 64) : outDivThenSum q k v b t h = outSumThenDiv q k v b t h := by
  choose w hw0 hw using fun s => weight_real q k hq hk b t s
  choose u hu using fun s => hv b s h
  obtain ⟨p, hp, hpt⟩ := weight_diag_pos q k hq hk b t
  have hwt : 0 < w t := by
    have : (w t : EReal) = (p : EReal) := by rw [← hw t, hpt]
    rw [EReal.coe_eq_coe_iff.mp this]
    exact hp
  have hd : denom q k b t = ((∑ s : Fin 2048, w s : ℝ) : EReal) := by
    unfold denom
    rw [coe_sum]
    exact Finset.sum_congr rfl fun s _ => hw s
  have hpos : 0 < ∑ s : Fin 2048, w s :=
    Finset.sum_pos' (fun s _ => hw0 s) ⟨t, Finset.mem_univ _, hwt⟩
  unfold outDivThenSum outSumThenDiv
  rw [hd]
  have e1 : ∀ s ∈ (Finset.univ : Finset (Fin 2048)),
      Ideal.div (weight q k b t s) ((∑ s : Fin 2048, w s : ℝ) : EReal) * v b s h
        = Ideal.div (w s : EReal) ((∑ s : Fin 2048, w s : ℝ) : EReal) * (u s : EReal) := by
    intro s _
    rw [hw s, hu s]
  have e2 : ∀ s ∈ (Finset.univ : Finset (Fin 2048)), weight q k b t s * v b s h = (w s : EReal) * (u s : EReal) := by
    intro s _
    rw [hw s, hu s]
  rw [Finset.sum_congr rfl e1, Finset.sum_congr rfl e2]
  exact sum_div_eq_div_sum _ w u hpos.ne'

end

/-- With every input entry a real, attention with every weight normalised before the sum equals attention with one
    division after the sum. -/
theorem attnDivThenSum_eq_attnSumThenDiv (x : Arr3 16 2048 1024) (Wq Wk Wv : Arr2 1024 64)
    (hx : ∀ i, ∃ r : ℝ, x i = (r : EReal)) (hq : ∀ i, ∃ r : ℝ, Wq i = (r : EReal))
    (hk : ∀ i, ∃ r : ℝ, Wk i = (r : EReal)) (hv : ∀ i, ∃ r : ℝ, Wv i = (r : EReal)) :
    attnDivThenSum x Wq Wk Wv = attnSumThenDiv x Wq Wk Wv := by
  funext i
  unfold attnDivThenSum attnSumThenDiv
  exact outDivThenSum_eq_outSumThenDiv _ _ _ (proj_real x Wq hx hq) (proj_real x Wk hx hk) (proj_real x Wv hx hv) _ _ _

end Cert.Attn

end
-- ==== Proof.FiniteInputs.lean ====
/-
  From the finiteness precondition to "every input entry is a real number".

  The precondition computes, for each of the four inputs, `all (|x| < +∞)` and takes the conjunction of the four answers.
  Over the extended reals `|x| = max x (-x)` and the word `0x7F800000` denotes `+∞`; `max x (-x) < +∞` fails at both
  infinities (where the maximum is `+∞`) and holds at every real.  So a precondition that answers 1 says every entry of
  every input is a real.
-/
import proofs.«126121_j90881507983860_2_alg».proof.Pre_finite_inputs
import proofs.«126121_j90881507983860_2_alg».proof.Proof.Gen.Pre_finite_inputs
import Idealize.ShloMosaic.Lib.ReduceAll
import Idealize.ShloMosaic.Lib.ValueIdx
import Idealize.ShloMosaic.PureOps.Ideal

noncomputable section

namespace Cert.Attn.Finite

open Idealize.ShloMosaic Idealize.ShloMosaic.ValueIdx

/-- The binary32 word `0x7F800000` denotes `+∞`. -/
theorem inf_eq_top : Ideal.ofBits .f32 0x7F800000#32 = ⊤ := by
  simp [Ideal.ofBits, Ideal.ieee]

/-- An extended real whose absolute value compares below `+∞` is a real. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- One input: if `all (|a| < +∞)` answers 1, every entry of `a` is a real. -/
theorem reals_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf a) (broadcastInDim s ![] hb (constant Cert.Pre_finite_inputs.S_ .f32 0x7F800000#32)))
        init hr hu ix0 = 1#1) :
    ∀ i, ∃ r : ℝ, a i = (r : EReal) := by
  intro i
  have hi := Host.reduce_andi_all _ init hr hu ix0 e i
  exact real_of_abs_lt_inf (a i) hi

/-- The precondition answers 1 only if every entry of the four inputs is a real. -/
theorem reals_of_pre [Cert.Pre_finite_inputs.Facts]
    (a0 : FVec Ideal Cert.Pre_finite_inputs.S16x2048x1024 .f32) (a1 a2 a3 : FVec Ideal Cert.Pre_finite_inputs.S1024x64 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨reals_of_all a0 _ _ _ _ e0, reals_of_all a1 _ _ _ _ e1, reals_of_all a2 _ _ _ _ e2, reals_of_all a3 _ _ _ _ e3⟩

end Cert.Attn.Finite

end
-- ==== Proof.lean ====
/-
  Causal single-head attention: the Pallas program (a fused q/k/v projection followed by full-row softmax attention)
  against its jnp reference, over the extended reals.

  The three frames.  The kernel program, at the word level and at the ideal instance, is a host concatenation of the
  three weights followed by two pipelined regions; each region's body runs at every grid point on whole staging buffers
  and writes only its own output blocks, so the program terminates, faults nowhere and leaves its four argument arrays
  as launched.  The reference is a straight line of host operations; its frame is its run with the result dropped.

  The idealization's one rewrite reads the kernel's finite mask fill as minus infinity; `preserves` is that rule's
  statement.

  The value claim.  At the ideal instance the projection region leaves `x·Wq`, `x·Wk`, `x·Wv` exactly, and the
  attention region leaves, at `(b, t, h)`, the quotient `(Σ_s w[b,t,s] · v[b,s,h]) / l[b,t]` of the weighted sum of the value
  rows by the row's normaliser, where `w = exp (masked score − row maximum)` and `l = Σ_s w`.  The reference divides every
  weight by `l` before the sum: `Σ_s (w[b,t,s] / l[b,t]) · v[b,s,h]`.  With finite inputs every score is a real, the
  diagonal entry of each masked row is unmasked, so the row maximum is a real, every weight is a real in [0, 1], and
  `l ≥ 1` is a positive real: dividing by it is multiplying by a real, which moves across the finite sum.  That is the
  only place the precondition is used.
-/
import proofs.«126121_j90881507983860_2_alg».proof.Defs
import proofs.«126121_j90881507983860_2_alg».proof.Proof.Gen.Kernel
import proofs.«126121_j90881507983860_2_alg».proof.Proof.Gen.KernelIdeal
import proofs.«126121_j90881507983860_2_alg».proof.Proof.Gen.ReferenceIdeal
import proofs.«126121_j90881507983860_2_alg».proof.Proof.Gen.Pre_finite_inputs
import proofs.«126121_j90881507983860_2_alg».proof.Proof.KRun
import proofs.«126121_j90881507983860_2_alg».proof.Proof.KIAttnValue
import proofs.«126121_j90881507983860_2_alg».proof.Proof.RefAttn
import proofs.«126121_j90881507983860_2_alg».proof.Proof.AttnLaw
import proofs.«126121_j90881507983860_2_alg».proof.Proof.FiniteInputs
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Run.frame m ρ

/-- So does the idealized kernel program. -/
theorem frame_kernelIdeal : Cert.frame_KernelIdeal := fun m ρ _ => Cert.KernelIdeal.Run.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the mask fill, a large negative finite number in the kernel's text, denotes
    minus infinity. -/
theorem preserves : Cert.preserves_Kernel_KernelIdeal :=
  IdealRules.named_const.statement Cert.KernelIdeal.κ "neg_big" .f32 0xFF333332#32 ⊥ rfl

/-- At the ideal instance, from memories agreeing on the arguments, the kernel program ends with the attention written
    with one division after the sum and the reference with every weight divided before the sum; for finite inputs the two
    are one array. -/
theorem algebraic : Cert.algebraic_KernelIdeal_ReferenceIdeal := by
  intro m ρ m' ρ' hpre hagree
  refine ⟨fun c => Cert.KernelIdeal.AttnValue.arrO m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Attn.Ref.ref_eq_spec,
    (hagree c).1, (hagree c).2.1, (hagree c).2.2.1, (hagree c).2.2.2]
  obtain ⟨h0, h1, h2, h3⟩ := Cert.Attn.Finite.reals_of_pre _ _ _ _ (hpre c)
  exact Cert.Attn.attnDivThenSum_eq_attnSumThenDiv _ _ _ _ h0 h1 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
